-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x1600000 : Shape := ⟨2, ![2, 1600000]⟩
abbrev S50000x128 : Shape := ⟨2, ![50000, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg7 : FVec F S128 .f32) (main_arg8 : FVec F S128x10 .f32) (main_arg9 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x10 .f32 := Host.absf main_arg8
  let main_cst_8 : FVec F S_ .f32 := constant S_ .f32 0x7F800000#32
  let main_v25 : FVec F S128x10 .f32 := broadcastInDim S128x10 ![] bcast_S_S128x10 main_cst_8
  let main_v26 : IVec S128x10 1 := cmpf .olt main_v24 main_v25
  let main_c_9 : IVec S_ 1 := constantI S_ 1 1#1
  let main_v27 : IVec S_ 1 := (fun x v => Host.reduce IntOp.andi x v reducesTo_S128x10_S_d0_1 h_S_) main_v26 main_c_9
  let main_v28 : IVec S_ 1 := andi main_v23 main_v27
  let main_v29 : FVec F S10 .f32 := Host.absf main_arg9
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : IVec S100000 32) (main_arg1 : IVec S2x1600000 32) (main_arg2 : IVec S100000 32) (main_arg3 : FVec F S50000x128 .f32) (main_arg4 : FVec F S128x128 .f32) (main_arg5 : FVec F S128 .f32) (main_arg6 : FVec F S128x128 .f32) (main_arg7 : FVec F S128 .f32) (main_arg8 : FVec F S128x10 .f32) (main_arg9 : FVec F S10 .f32) : IVec S_ 1 :=
  let main_v0 : FVec F S50000x128 .f32 := Host.absf main_arg3
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_v13 main_v16
-- ==== Kernel.lean ====
abbrev S100000 : Shape := ⟨1, ![100000]⟩
abbrev S2x1600000 : Shape := ⟨2, ![2, 1600000]⟩
abbrev S50000x128 : Shape := ⟨2, ![50000, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x128 : Shape := ⟨2, ![100000, 128]⟩
abbrev S10000x128 : Shape := ⟨2, ![10000, 128]⟩
abbrev S1700000x128 : Shape := ⟨2, ![1700000, 128]⟩
abbrev S1x128 : Shape := ⟨2, ![1, 128]⟩
abbrev S512x128 : Shape := ⟨2, ![512, 128]⟩
abbrev S512 : Shape := ⟨1, ![512]⟩
abbrev S512x1 : Shape := ⟨2, ![512, 1]⟩
abbrev S1x10 : Shape := ⟨2, ![1, 10]⟩
abbrev S512x10 : Shape := ⟨2, ![512, 10]⟩

abbrev nBuf : Space → Nat
  | .hbm => 110
  | .vmem => 25
  | .smem => 0
  | _ => 0

abbrev bufTy : (tb : Table) → Fin (tcTables nBuf tb) → BufTy
  | .hbm, ⟨0, _⟩ => ⟨S100000, .i32⟩
  | .hbm, ⟨1, _⟩ => ⟨S2x1600000, .i32⟩
  | .hbm, ⟨2, _⟩ => ⟨S100000, .i32⟩
  | .hbm, ⟨3, _⟩ => ⟨S50000x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x10, .f32⟩
  | .hbm, ⟨9, _⟩ => ⟨S10, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S100000, .i32⟩
  | .hbm, ⟨15, _⟩ => ⟨S1700000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S_, .i32⟩
  | .hbm, ⟨51, _⟩ => ⟨S100000, .i32⟩
  | .hbm, ⟨52, _⟩ => ⟨S100000, .i1⟩
  | .hbm, ⟨53, _⟩ => ⟨S_, .i32⟩
  | .hbm, ⟨54, _⟩ => ⟨S100000, .i32⟩
  | .hbm, ⟨55, _⟩ => ⟨S100000, .i32⟩
  | .hbm, ⟨56, _⟩ => ⟨S100000, .i32⟩
  | .hbm, ⟨57, _⟩ => ⟨S100000x1, .i32⟩
  | .hbm, ⟨58, _⟩ => ⟨S100000x128, .f32⟩
  | .hbm, ⟨59, _⟩ => ⟨S100000x128, .f32⟩
  | .hbm, ⟨60, _⟩ => ⟨S_, .i32⟩
  | .hbm, ⟨61, _⟩ => ⟨S1700000, .i32⟩
  | .hbm, ⟨62, _⟩ => ⟨S1700000, .i1⟩
  | .hbm, ⟨63, _⟩ => ⟨S_, .i32⟩
  | .hbm, ⟨64, _⟩ => ⟨S1700000, .i32⟩
  | .hbm, ⟨65, _⟩ => ⟨S1700000, .i32⟩
  | .hbm, ⟨66, _⟩ => ⟨S1700000, .i32⟩
  | .hbm, ⟨67, _⟩ => ⟨S1700000x1, .i32⟩
  | .hbm, ⟨68, _⟩ => ⟨S1700000x128, .f32⟩
  | .hbm, ⟨69, _⟩ => ⟨S1700000x1, .f32⟩
  | .hbm, ⟨70, _⟩ => ⟨S1700000x128, .f32⟩
  | .hbm, ⟨71, _⟩ => ⟨S1700000x128, .f32⟩
  | .hbm, ⟨72, _⟩ => ⟨S_, .f32⟩
  | .hbm, ⟨73, _⟩ => ⟨S100000x128, .f32⟩
  | .hbm, ⟨74, _⟩ => ⟨S1700000x1, .i32⟩
  | .hbm, ⟨75, _⟩ => ⟨S100000x128, .f32⟩
  | .hbm, ⟨76, _⟩ => ⟨S1x128, .f32⟩
  | .hbm, ⟨77, _⟩ => ⟨S100000x128, .f32⟩
  | .hbm, ⟨78, _⟩ => ⟨S100000x128, .f32⟩
  | .hbm, ⟨79, _⟩ => ⟨S_, .i32⟩
  | .hbm, ⟨80, _⟩ => ⟨S1700000, .i32⟩
  | .hbm, ⟨81, _⟩ => ⟨S1700000, .i1⟩
  | .hbm, ⟨82, _⟩ => ⟨S_, .i32⟩
  | .hbm, ⟨83, _⟩ => ⟨S1700000, .i32⟩
  | .hbm, ⟨84, _⟩ => ⟨S1700000, .i32⟩
  | .hbm, ⟨85, _⟩ => ⟨S1700000, .i32⟩
  | .hbm, ⟨86, _⟩ => ⟨S1700000x1, .i32⟩
  | .hbm, ⟨87, _⟩ => ⟨S1700000x128, .f32⟩
  | .hbm, ⟨88, _⟩ => ⟨S1700000x1, .f32⟩
  | .hbm, ⟨89, _⟩ => ⟨S1700000x128, .f32⟩
  | .hbm, ⟨90, _⟩ => ⟨S1700000x128, .f32⟩
  | .hbm, ⟨91, _⟩ => ⟨S_, .f32⟩
  | .hbm, ⟨92, _⟩ => ⟨S100000x128, .f32⟩
  | .hbm, ⟨93, _⟩ => ⟨S1700000x1, .i32⟩
  | .hbm, ⟨94, _⟩ => ⟨S100000x128, .f32⟩
  | .hbm, ⟨95, _⟩ => ⟨S1x128, .f32⟩
  | .hbm, ⟨96, _⟩ => ⟨S100000x128, .f32⟩
  | .hbm, ⟨97, _⟩ => ⟨S_, .f32⟩
  | .hbm, ⟨98, _⟩ => ⟨S512x128, .f32⟩
  | .hbm, ⟨99, _⟩ => ⟨S100000x1, .i32⟩
  | .hbm, ⟨100, _⟩ => ⟨S512x128, .f32⟩
  | .hbm, ⟨101, _⟩ => ⟨S_, .f32⟩
  | .hbm, ⟨102, _⟩ => ⟨S100000, .f32⟩
  | .hbm, ⟨103, _⟩ => ⟨S_, .f32⟩
  | .hbm, ⟨104, _⟩ => ⟨S512, .f32⟩
  | .hbm, ⟨105, _⟩ => ⟨S100000x1, .i32⟩
  | .hbm, ⟨106, _⟩ => ⟨S512, .f32⟩
  | .hbm, ⟨107, _⟩ => ⟨S512x1, .f32⟩
  | .hbm, ⟨108, _⟩ => ⟨S1x10, .f32⟩
  | .hbm, ⟨109, _⟩ => ⟨S512x10, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S512x128, .f32⟩
  | .local _ .vmem, ⟨21, _⟩ => ⟨S512x1, .f32⟩
  | .local _ .vmem, ⟨22, _⟩ => ⟨S128x10, .f32⟩
  | .local _ .vmem, ⟨23, _⟩ => ⟨S1x10, .f32⟩
  | .local _ .vmem, ⟨24, _⟩ => ⟨S512x10, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_c_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_11 : Ref sig .tc := ⟨.hbm, 79, rfl⟩
abbrev main_v54 : Ref sig .tc := ⟨.hbm, 80, rfl⟩
abbrev main_v55 : Ref sig .tc := ⟨.hbm, 81, rfl⟩
abbrev main_c_12 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_13 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_14 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_15 : Ref sig .tc := ⟨.hbm, 101, rfl⟩
abbrev main_v72 : Ref sig .tc := ⟨.hbm, 102, rfl⟩
abbrev main_cst_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg3_0 : Ref sig .tc := ⟨.vmem, 23, rfl⟩
abbrev cc4_stg4_0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem2_0 : DmaSem sig := 22
abbrev cc4_sem3_0 : DmaSem sig := 23
abbrev cc4_sem4_0 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S512x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S512x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128x10 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x10 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S512x10 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bcast_S_S512x128 : S_.BroadcastsInDim S512x128 (![] : Fin 0 → Fin S512x128.rank)
  bcast_S_S512 : S_.BroadcastsInDim S512 (![] : Fin 0 → Fin S512.rank)
  shapeCasts_S512_S512x1 : S512.ShapeCasts S512x1
  shapeCasts_S10_S1x10 : S10.ShapeCasts S1x10
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S512x1_S512x128 : S512x1.Broadcasts S512x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S50000x128_S100000x1_S100000x128_1_0_n_n_0_1_1128_wf : GatherDims.WF S50000x128 S100000x1 S100000x128 [1] [0] [] [0] [] 1 ![1, 128]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x10_S512x10_1_0_0_1_n_n_wf : DotDims.WF S512x128 S128x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S512x128.size a ≤ S512x128.size a
  hwx4_0 : ∀ i : grid4.Coords, EltTy.bits .f32 = 32 ∨ (Rect.block (s := S512x128) S512x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x1.size a ≤ S512x1.size a
  hwx4_1 : ∀ i : grid4.Coords, EltTy.bits .f32 = 32 ∨ (Rect.block (s := S512x1) S512x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x10.size a ≤ S128x10.size a
  hwx4_2 : ∀ i : grid4.Coords, EltTy.bits .f32 = 32 ∨ (Rect.block (s := S128x10) S128x10.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x10.size a ≤ S1x10.size a
  hwx4_3 : ∀ i : grid4.Coords, EltTy.bits .f32 = 32 ∨ (Rect.block (s := S1x10) S1x10.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S512x10.size a ≤ S512x10.size a
  hwx4_4 : ∀ i : grid4.Coords, EltTy.bits .f32 = 32 ∨ (Rect.block (s := S512x10) S512x10.size (cc4_transform_4 i) (hinb4_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S50000x128_S100000x1_S100000x128_1_0_n_n_0_1_1128 : GatherDims S50000x128 S100000x1 S100000x128 where
  offsetDims := [1]
  collapsedSliceDims := [0]
  operandBatchingDims := []
  startIndicesBatchingDims := []
  startIndexMap := [0]
  indexVectorDim := 1
  sliceSizes := ![1, 128]
  wf := gather_S50000x128_S100000x1_S100000x128_1_0_n_n_0_1_1128_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

abbrev win0_0 : Pipeline.Window sig grid0 :=
  Pipeline.Window.ofSpec (Memref.whole main_v36) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v37) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v52) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v66) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v67) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v68) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v71) S512x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v76) S512x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg8) S128x10.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v77) S1x10.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v78) S512x10.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S100000 : Shape := ⟨1, ![100000]⟩
abbrev S2x1600000 : Shape := ⟨2, ![2, 1600000]⟩
abbrev S50000x128 : Shape := ⟨2, ![50000, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S100000x1 : Shape := ⟨2, ![100000, 1]⟩
abbrev S100000x128 : Shape := ⟨2, ![100000, 128]⟩
abbrev S1700000 : Shape := ⟨1, ![1700000]⟩
abbrev S1700000x1 : Shape := ⟨2, ![1700000, 1]⟩
abbrev S1700000x128 : Shape := ⟨2, ![1700000, 128]⟩
abbrev S1x128 : Shape := ⟨2, ![1, 128]⟩
abbrev S512x128 : Shape := ⟨2, ![512, 128]⟩
abbrev S512 : Shape := ⟨1, ![512]⟩
abbrev S512x1 : Shape := ⟨2, ![512, 1]⟩
abbrev S512x10 : Shape := ⟨2, ![512, 10]⟩
abbrev S1x10 : Shape := ⟨2, ![1, 10]⟩

abbrev nBuf : Space → Nat
  | .hbm => 161
  | .vmem => 0
  | .smem => 0
  | _ => 0

abbrev hbmTy0_0 (i : Nat) : BufTy := match i % 128 with
  | 0 => ⟨S100000, .i32⟩
  | 1 => ⟨S2x1600000, .i32⟩
  | 2 => ⟨S100000, .i32⟩
  | 3 => ⟨S50000x128, .f32⟩
  | 4 => ⟨S128x128, .f32⟩
  | 5 => ⟨S128, .f32⟩
  | 6 => ⟨S128x128, .f32⟩
  | 7 => ⟨S128, .f32⟩
  | 8 => ⟨S128x10, .f32⟩
  | 9 => ⟨S10, .f32⟩
  | 10 => ⟨S1x1600000, .i32⟩
  | 11 => ⟨S1600000, .i32⟩
  | 12 => ⟨S1x1600000, .i32⟩
  | 13 => ⟨S1600000, .i32⟩
  | 14 => ⟨S_, .i32⟩
  | 15 => ⟨S100000, .i32⟩
  | 16 => ⟨S100000, .i1⟩
  | 17 => ⟨S_, .i32⟩
  | 18 => ⟨S100000, .i32⟩
  | 19 => ⟨S100000, .i32⟩
  | 20 => ⟨S100000, .i32⟩
  | 21 => ⟨S100000x1, .i32⟩
  | 22 => ⟨S100000x128, .f32⟩
  | 23 => ⟨S100000x128, .f32⟩
  | 24 => ⟨S100000, .i32⟩
  | 25 => ⟨S1700000, .i32⟩
  | 26 => ⟨S1700000, .i32⟩
  | 27 => ⟨S_, .f32⟩
  | 28 => ⟨S1700000, .f32⟩
  | 29 => ⟨S_, .f32⟩
  | 30 => ⟨S100000, .f32⟩
  | 31 => ⟨S1700000x1, .i32⟩
  | 32 => ⟨S100000, .f32⟩
  | 33 => ⟨S_, .f32⟩
  | 34 => ⟨S100000, .f32⟩
  | 35 => ⟨S100000, .i1⟩
  | 36 => ⟨S100000, .f32⟩
  | 37 => ⟨S_, .f32⟩
  | 38 => ⟨S_, .f32⟩
  | 39 => ⟨S100000, .f32⟩
  | 40 => ⟨S100000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000, .f32⟩
  | 59 => ⟨S1700000, .f32⟩
  | 60 => ⟨S_, .i32⟩
  | 61 => ⟨S1700000, .i32⟩
  | 62 => ⟨S1700000, .i1⟩
  | 63 => ⟨S_, .i32⟩
  | 64 => ⟨S1700000, .i32⟩
  | 65 => ⟨S1700000, .i32⟩
  | 66 => ⟨S1700000, .i32⟩
  | 67 => ⟨S1700000x1, .i32⟩
  | 68 => ⟨S1700000x128, .f32⟩
  | 69 => ⟨S1700000x1, .f32⟩
  | 70 => ⟨S1700000x128, .f32⟩
  | 71 => ⟨S1700000x128, .f32⟩
  | 72 => ⟨S_, .f32⟩
  | 73 => ⟨S100000x128, .f32⟩
  | 74 => ⟨S1700000x1, .i32⟩
  | 75 => ⟨S100000x128, .f32⟩
  | 76 => ⟨S1x128, .f32⟩
  | 77 => ⟨S100000x128, .f32⟩
  | 78 => ⟨S100000x128, .f32⟩
  | 79 => ⟨S_, .f32⟩
  | 80 => ⟨S100000x128, .f32⟩
  | 81 => ⟨S100000x128, .f32⟩
  | 82 => ⟨S100000x128, .f32⟩
  | 83 => ⟨S100000, .i32⟩
  | 84 => ⟨S1700000, .i32⟩
  | 85 => ⟨S1700000, .i32⟩
  | 86 => ⟨S_, .f32⟩
  | 87 => ⟨S1700000, .f32⟩
  | 88 => ⟨S_, .f32⟩
  | 89 => ⟨S100000, .f32⟩
  | 90 => ⟨S1700000x1, .i32⟩
  | 91 => ⟨S100000, .f32⟩
  | 92 => ⟨S_, .f32⟩
  | 93 => ⟨S100000, .f32⟩
  | 94 => ⟨S100000, .i1⟩
  | 95 => ⟨S100000, .f32⟩
  | 96 => ⟨S_, .f32⟩
  | 97 => ⟨S_, .f32⟩
  | 98 => ⟨S100000, .f32⟩
  | 99 => ⟨S100000, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000, .f32⟩
  | 109 => ⟨S_, .i32⟩
  | 110 => ⟨S1700000, .i32⟩
  | 111 => ⟨S1700000, .i1⟩
  | 112 => ⟨S_, .i32⟩
  | 113 => ⟨S1700000, .i32⟩
  | 114 => ⟨S1700000, .i32⟩
  | 115 => ⟨S1700000, .i32⟩
  | 116 => ⟨S1700000x1, .i32⟩
  | 117 => ⟨S1700000, .f32⟩
  | 118 => ⟨S1700000, .f32⟩
  | 119 => ⟨S_, .i32⟩
  | 120 => ⟨S1700000, .i32⟩
  | 121 => ⟨S1700000, .i1⟩
  | 122 => ⟨S_, .i32⟩
  | 123 => ⟨S1700000, .i32⟩
  | 124 => ⟨S1700000, .i32⟩
  | 125 => ⟨S1700000, .i32⟩
  | 126 => ⟨S1700000x1, .i32⟩
  | 127 => ⟨S1700000x128, .f32⟩
  | _ => ⟨S100000, .i32⟩

abbrev hbmTy0_1 (i : Nat) : BufTy := match i % 128 with
  | 0 => ⟨S1700000x1, .f32⟩
  | 1 => ⟨S1700000x128, .f32⟩
  | 2 => ⟨S1700000x128, .f32⟩
  | 3 => ⟨S_, .f32⟩
  | 4 => ⟨S100000x128, .f32⟩
  | 5 => ⟨S1700000x1, .i32⟩
  | 6 => ⟨S100000x128, .f32⟩
  | 7 => ⟨S1x128, .f32⟩
  | 8 => ⟨S100000x128, .f32⟩
  | 9 => ⟨S100000x128, .f32⟩
  | 10 => ⟨S_, .f32⟩
  | 11 => ⟨S100000x128, .f32⟩
  | 12 => ⟨S100000x128, .f32⟩
  | 13 => ⟨S_, .f32⟩
  | 14 => ⟨S512x128, .f32⟩
  | 15 => ⟨S100000x1, .i32⟩
  | 16 => ⟨S512x128, .f32⟩
  | 17 => ⟨S_, .f32⟩
  | 18 => ⟨S100000, .f32⟩
  | 19 => ⟨S_, .f32⟩
  | 20 => ⟨S512, .f32⟩
  | 21 => ⟨S100000x1, .i32⟩
  | 22 => ⟨S512, .f32⟩
  | 23 => ⟨S_, .f32⟩
  | 24 => ⟨S512, .f32⟩
  | 25 => ⟨S512, .f32⟩
  | 26 => ⟨S512x1, .f32⟩
  | 27 => ⟨S512x128, .f32⟩
  | 28 => ⟨S512x128, .f32⟩
  | 29 => ⟨S512x10, .f32⟩
  | 30 => ⟨S1x10, .f32⟩
  | 31 => ⟨S512x10, .f32⟩
  | 32 => ⟨S512x10, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_c_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_call1_cst : Ref sig .tc := ⟨.hbm, 79, rfl⟩
abbrev main_call1_v0 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_cst_12 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_13 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_14 : Ref sig .tc := ⟨.hbm, 96, rfl⟩
abbrev main_call2_v0 : Ref sig .tc := ⟨.hbm, 97, rfl⟩
abbrev main_call2_v1 : Ref sig .tc := ⟨.hbm, 98, rfl⟩
abbrev main_v66 : Ref sig .tc := ⟨.hbm, 99, rfl⟩
abbrev main_c_15 : Ref sig .tc := ⟨.hbm, 100, rfl⟩
abbrev main_v67 : Ref sig .tc := ⟨.hbm, 101, rfl⟩
abbrev main_v68 : Ref sig .tc := ⟨.hbm, 102, rfl⟩
abbrev main_c_16 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_c_17 : Ref sig .tc := ⟨.hbm, 109, rfl⟩
abbrev main_v74 : Ref sig .tc := ⟨.hbm, 110, rfl⟩
abbrev main_v75 : Ref sig .tc := ⟨.hbm, 111, rfl⟩
abbrev main_c_18 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_c_19 : Ref sig .tc := ⟨.hbm, 119, rfl⟩
abbrev main_v82 : Ref sig .tc := ⟨.hbm, 120, rfl⟩
abbrev main_v83 : Ref sig .tc := ⟨.hbm, 121, rfl⟩
abbrev main_c_20 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_cst_21 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_call3_cst : Ref sig .tc := ⟨.hbm, 138, rfl⟩
abbrev main_call3_v0 : Ref sig .tc := ⟨.hbm, 139, rfl⟩
abbrev main_v98 : Ref sig .tc := ⟨.hbm, 140, rfl⟩
abbrev main_cst_22 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_cst_23 : Ref sig .tc := ⟨.hbm, 145, rfl⟩
abbrev main_v102 : Ref sig .tc := ⟨.hbm, 146, rfl⟩
abbrev main_cst_24 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_cst_25 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S100000_S100000x1_0 : S100000.BroadcastsInDim S100000x1 (![0] : Fin 1 → Fin S100000x1.rank)
  concatenates_S1600000_S100000_S1700000_d0 : Shape.Concatenates [S1600000, S100000] S1700000 0
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  gather_S50000x128_S100000x1_S100000x128_1_0_n_n_0_1_1128_wf : GatherDims.WF S50000x128 S100000x1 S100000x128 [1] [0] [] [0] [] 1 ![1, 128]
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x10_S512x10_1_0_0_1_n_n_wf : DotDims.WF S512x128 S128x10 S512x10 [1] [0] [0] [1] [] []

variable [Facts₀]

def gather_S50000x128_S100000x1_S100000x128_1_0_n_n_0_1_1128 : GatherDims S50000x128 S100000x1 S100000x128 where
  offsetDims := [1]
  collapsedSliceDims := [0]
  operandBatchingDims := []
  startIndicesBatchingDims := []
  startIndexMap := [0]
  indexVectorDim := 1
  sliceSizes := ![1, 128]
  wf := gather_S50000x128_S100000x1_S100000x128_1_0_n_n_0_1_1128_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

class Facts : Prop extends Facts₀ where

variable [Facts]
-- ==== Proof.KernelRun.lean ====
/-
  The idealized kernel's run, with its result read.

  The program is eleven segments: three stretches of host operations, the first node-wise product, a stretch, the first
  bias-and-relu, the second product, a stretch, the second bias-and-relu, a stretch, and the pooled classifier.  The
  buffer contents at each boundary are a fold from the launch memory; the last one is `W11`.  Every execution
  terminates, and in the final state the result buffer holds `W11` at that buffer and every argument array holds
  what it held at launch.
-/
import proofs.«176902_j88648124990850_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates; the result buffer ends at the last boundary's contents, the arguments as launched. -/
theorem run : θ_run defs (onTc (τ := τ) (main (F := F))) ⟨m, fun _ => 0, ρ⟩ (fun r => ∀ c : Dev nD,
      r.2.mem ((c.tc : Thread nD τ).loc main_v78) = W11 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v78 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c)⟩)

end Cert.KernelIdeal.Result

end
-- ==== Proof.LibPlainMatmul.lean ====
/-
  A plain matrix product read at one entry, over the extended reals.

  The product of an M×K matrix by a K×N matrix with no batch axis contracts the left operand's columns against the
  right operand's rows.  Added into the all-zero matrix, its entry (p, q) is the plain sum
      Σ_{k < K}  lhs (p, k) · rhs (k, q),
  the sum over the one contraction axis re-indexed by that axis's coordinate.  Nothing of real arithmetic is used
  beyond 0 + x = x, so the statement holds at the infinities as well.

  A one-row matrix laid along every row of an M×N matrix reads, at (p, q), its entry (0, q).

  Together: entry (p, q) of  f (lhs · rhs + row)  applied entrywise, for any scalar function f.
-/
import Idealize.ShloMosaic.Lib.ValueIdx
import Idealize.ShloMosaic.Lib.Pipeline.Value
import Idealize.ShloMosaic.PureOps.Ideal.Laws

noncomputable section

open scoped BigOperators

namespace Idealize.ShloMosaic.PlainMatmul

open Idealize.ShloMosaic Idealize.ShloMosaic.ValueIdx

variable {M K N : Nat}

/-- The dimension numbers of a plain product: the left operand contracts its columns (axis 1), the right operand its
    rows (axis 0); the remaining axes are the result's rows and columns; there is no batch axis. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable (D : DotDims ⟨2, ![M, K]⟩ ⟨2, ![K, N]⟩ ⟨2, ![M, N]⟩)

/-- One axis is contracted … -/
theorem contr_rank (hD : IsPlain D) : D.contr.rank = 1 := by
  rw [D.rank_contr, hD.lc]; rfl

/-- … and its extent is the left operand's number of columns. -/
theorem contr_size (hD : IsPlain D) : D.contr.size ⟨0, by rw [contr_rank D hD]; exact Nat.one_pos⟩ = K := by
  have h1 : 0 < D.lhsContracting.length := by rw [hD.lc]; exact Nat.one_pos
  have h2 : D.lhsContracting[0]'h1 = (1 : Fin 2) := List.getElem_of_eq hD.lc h1
  rw [D.size_contr 0 h1, h2]
  rfl

/-- The left operand is read in the result's row … -/
theorem lhsIdx_row (hD : IsPlain D) (j : (⟨2, ![M, N]⟩ : Shape).Idx) (k : D.contr.Idx) : (D.lhsIdx j k 0).val = (j 0).val := by
  obtain ⟨lc, rc, ln, rn, lb, rb, wf⟩ := D
  obtain ⟨h1, h2, h3, h4, h5, h6⟩ := hD
  dsimp only at h1 h2 h3 h4 h5 h6
  subst h1 h2 h3 h4 h5 h6
  rfl

/-- … and the right operand in the result's column. -/
theorem rhsIdx_col (hD : IsPlain D) (j : (⟨2, ![M, N]⟩ : Shape).Idx) (k : D.contr.Idx) : (D.rhsIdx j k 1).val = (j 1).val := by
  obtain ⟨lc, rc, ln, rn, lb, rb, wf⟩ := D
  obtain ⟨h1, h2, h3, h4, h5, h6⟩ := hD
  dsimp only at h1 h2 h3 h4 h5 h6
  subst h1 h2 h3 h4 h5 h6
  rfl

/-- The contraction position, as a number below the common extent. -/
abbrev contrFin (hD : IsPlain D) : D.contr.Idx ≃ Fin K := contrEquiv1 D K (contr_rank D hD) (contr_size D hD)

/-- At contraction position `k` the left operand is read at (row, k) … -/
theorem lhsIdx_eq (hD : IsPlain D) (p : Fin M) (q : Fin N) (k : Fin K) :
    D.lhsIdx (ix2 p q) ((contrFin D hD).symm k) = ix2 p k := by
  funext a
  apply Fin.ext
  match a with
  | ⟨0, _⟩ => exact lhsIdx_row D hD _ _
  | ⟨1, _⟩ => exact (D.lhsIdx_val_of_single hD.lc _ _).trans (contrEquiv1_symm_val D K _ _ k)

/-- … and the right operand at (k, column). -/
theorem rhsIdx_eq (hD : IsPlain D) (p : Fin M) (q : Fin N) (k : Fin K) :
    D.rhsIdx (ix2 p q) ((contrFin D hD).symm k) = ix2 k q := by
  funext a
  apply Fin.ext
  match a with
  | ⟨0, _⟩ => exact (D.rhsIdx_val_of_single hD.rc _ _).trans (contrEquiv1_symm_val D K _ _ k)
  | ⟨1, _⟩ => exact rhsIdx_col D hD _ _

/-- ENTRY (p, q) OF A PLAIN PRODUCT added into the zero matrix: Σ_k lhs (p, k) · rhs (k, q). -/
theorem matmul_zero_apply (hD : IsPlain D) {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrFin D hD).symm]
  refine Finset.sum_congr rfl fun k _ => ?_
  rw [lhsIdx_eq D hD p q k, rhsIdx_eq D hD p q k]

/-- A one-row matrix laid along every row reads, at (p, q), its entry (0, q). -/
theorem broadcastRow_apply {α : Type} (b : (⟨2, ![1, N]⟩ : Shape).Idx → α)
    (h : (⟨2, ![1, N]⟩ : Shape).Broadcasts ⟨2, ![M, N]⟩) (p : Fin M) (q : Fin N) :
    broadcastTo ⟨2, ![M, N]⟩ b h (ix2 p q) = b (ix2 (0 : Fin 1) q) := by
  refine broadcastTo_apply b h (ix2 p q) (ix2 (0 : Fin 1) q) fun a => ?_
  match a with
  | ⟨0, _⟩ => exact (if_pos rfl).symm
  | ⟨1, _⟩ =>
    by_cases hN : N = 1
    · subst hN
      show (q : ℕ) = if (1 : ℕ) = 1 then 0 else (q : ℕ)
      rw [if_pos rfl]; exact Nat.lt_one_iff.mp q.isLt
    · exact (if_neg hN).symm

/-- ENTRY (p, q) of a scalar function applied entrywise to (product + broadcast row). -/
theorem entry_apply (hD : IsPlain D) {φ₁ φ₂ : FTy} (prec : Option ContractPrecision) (f : EReal → EReal)
    (lhs : FVec Ideal ⟨2, ![M, K]⟩ φ₁) (rhs : FVec Ideal ⟨2, ![K, N]⟩ φ₂)
    (b : FVec Ideal ⟨2, ![1, N]⟩ .f32) (h : (⟨2, ![1, N]⟩ : Shape).Broadcasts ⟨2, ![M, N]⟩) (p : Fin M) (q : Fin N) :
    f (FloatOps.matmul D prec lhs rhs (constant (F := Ideal) ⟨2, ![M, N]⟩ .f32 0x00000000#32) (ix2 p q)
        + broadcastTo ⟨2, ![M, N]⟩ b h (ix2 p q))
      = f ((∑ k : Fin K, lhs (ix2 p k) * rhs (ix2 k q)) + b (ix2 (0 : Fin 1) q)) := by
  rw [matmul_zero_apply D hD, broadcastRow_apply]

end Idealize.ShloMosaic.PlainMatmul

end
-- ==== Proof.Spec.lean ====
/-
  The three dense stages of a two-layer graph convolution with mean pooling, as functions of whole arrays over the
  extended reals, entry by entry.

  * `prod x w`: entry (p, q) is Σ_k x (p, k) · w (k, q), the product of an M×K by a K×N matrix.
  * `biasRelu a b`: entry (p, q) is max (a (p, q) + b (0, q)) 0, a one-row matrix added to every row, then the
    positive part.
  * `poolLinear s n w b`: entry (g, c) is Σ_k (s (g, k) / max (n (g, 0)) 1) · w (k, c) + b (0, c): each row of `s`
    divided by its own count (counted as one when smaller), times `w`, plus a one-row matrix.

  The host's matrix product over dimension numbers that contract the left columns against the right rows is `prod`.
  A vector of length N recast as a 1×N matrix reads, at (0, q), the vector's entry q; so does the vector laid out
  along a new leading axis of extent one.
-/
import proofs.«176902_j88648124990850_1_alg».proof.Proof.LibPlainMatmul
import Idealize.ShloMosaic.Lib.ValueLayout

noncomputable section

open scoped BigOperators

namespace Cert.Gcn

open Idealize.ShloMosaic Idealize.ShloMosaic.ValueIdx

variable {M K N : Nat}

/-- Entry (p, q) of the product: Σ_k x (p, k) · w (k, q). -/
def prod (x : (⟨2, ![M, K]⟩ : Shape).Idx → EReal) (w : (⟨2, ![K, N]⟩ : Shape).Idx → EReal) :
    (⟨2, ![M, N]⟩ : Shape).Idx → EReal :=
  fun i => ∑ k : Fin K, x (ix2 (n0 := M) (i 0) k) * w (ix2 (n1 := N) k (i 1))

theorem prod_apply (x : (⟨2, ![M, K]⟩ : Shape).Idx → EReal) (w : (⟨2, ![K, N]⟩ : Shape).Idx → EReal) (p : Fin M) (q : Fin N) :
    prod x w (ix2 p q) = ∑ k : Fin K, x (ix2 p k) * w (ix2 k q) := rfl

/-- Entry (p, q) of a one-row matrix added to every row, then the positive part. -/
def biasRelu (a : (⟨2, ![M, N]⟩ : Shape).Idx → EReal) (b : (⟨2, ![1, N]⟩ : Shape).Idx → EReal) :
    (⟨2, ![M, N]⟩ : Shape).Idx → EReal :=
  fun i => max (a i + b (ix2 (0 : Fin 1) (n1 := N) (i 1))) (Ideal.ofBits .f32 0x00000000#32)

theorem biasRelu_apply (a : (⟨2, ![M, N]⟩ : Shape).Idx → EReal) (b : (⟨2, ![1, N]⟩ : Shape).Idx → EReal) (p : Fin M) (q : Fin N) :
    biasRelu a b (ix2 p q) = max (a (ix2 p q) + b (ix2 (0 : Fin 1) q)) (Ideal.ofBits .f32 0x00000000#32) := rfl

/-- Entry (g, c) of the pooled classifier: rows divided by their counts (at least one), times `w`, plus a row. -/
def poolLinear (s : (⟨2, ![M, K]⟩ : Shape).Idx → EReal) (n : (⟨2, ![M, 1]⟩ : Shape).Idx → EReal)
    (w : (⟨2, ![K, N]⟩ : Shape).Idx → EReal) (b : (⟨2, ![1, N]⟩ : Shape).Idx → EReal) :
    (⟨2, ![M, N]⟩ : Shape).Idx → EReal :=
  fun i => (∑ k : Fin K, Ideal.div (s (ix2 (n0 := M) (i 0) k))
        (max (n (ix2 (n0 := M) (i 0) (0 : Fin 1))) (Ideal.ofBits .f32 0x3F800000#32)) * w (ix2 (n1 := N) k (i 1)))
      + b (ix2 (0 : Fin 1) (n1 := N) (i 1))

theorem poolLinear_apply (s : (⟨2, ![M, K]⟩ : Shape).Idx → EReal) (n : (⟨2, ![M, 1]⟩ : Shape).Idx → EReal)
    (w : (⟨2, ![K, N]⟩ : Shape).Idx → EReal) (b : (⟨2, ![1, N]⟩ : Shape).Idx → EReal) (p : Fin M) (q : Fin N) :
    poolLinear s n w b (ix2 p q) = (∑ k : Fin K, Ideal.div (s (ix2 p k))
        (max (n (ix2 p (0 : Fin 1))) (Ideal.ofBits .f32 0x3F800000#32)) * w (ix2 k q)) + b (ix2 (0 : Fin 1) q) := rfl

/-- The host's product over plain dimension numbers is `prod`. -/
theorem dotGeneral_plain (D : DotDims ⟨2, ![M, K]⟩ ⟨2, ![K, N]⟩ ⟨2, ![M, N]⟩) (hD : PlainMatmul.IsPlain D)
    (prec : Option ContractPrecision) (x : FVec Ideal ⟨2, ![M, K]⟩ .f32) (w : FVec Ideal ⟨2, ![K, N]⟩ .f32) :
    Host.dotGeneral (F := Ideal) D prec x w = prod x w := by
  funext i
  obtain ⟨p, q, rfl⟩ : ∃ (p : Fin M) (q : Fin N), i = ix2 p q := ⟨i 0, i 1, eq_ix2 i⟩
  simp only [Host.dotGeneral]
  rw [Ideal.dotGeneral_apply, ← Equiv.sum_comp (PlainMatmul.contrFin D hD).symm, prod_apply]
  refine Finset.sum_congr rfl fun k _ => ?_
  rw [PlainMatmul.lhsIdx_eq D hD p q k, PlainMatmul.rhsIdx_eq D hD p q k]

/-- A length-N vector recast as a 1×N matrix reads, at (0, q), the vector's entry q. -/
theorem castRow_apply {α : Type} (v : (⟨1, ![N]⟩ : Shape).Idx → α) (h : (⟨1, ![N]⟩ : Shape).ShapeCasts ⟨2, ![1, N]⟩)
    (q : Fin N) : shapeCast ⟨2, ![1, N]⟩ v h (ix2 (0 : Fin 1) q) = v (ix1 q) := by
  refine (shapeCast_addUnit_apply ![N] v h (ix2 (0 : Fin 1) q)).trans (congrArg v ?_)
  funext a; match a with | ⟨0, _⟩ => rfl

/-- A length-N vector laid along a new leading axis of extent one reads, at (0, q), its entry q. -/
theorem bcastRow_apply {α : Type} (v : (⟨1, ![N]⟩ : Shape).Idx → α)
    (h : (⟨1, ![N]⟩ : Shape).BroadcastsInDim ⟨2, ![1, N]⟩ ![1]) (q : Fin N) :
    broadcastInDim ⟨2, ![1, N]⟩ ![1] h v (ix2 (0 : Fin 1) q) = v (ix1 q) := by
  refine broadcastInDim_apply ![1] h v (ix2 (0 : Fin 1) q) (ix1 q) fun a => ?_
  match a with
  | ⟨0, _⟩ =>
    by_cases hN : N = 1
    · subst hN
      show (q : ℕ) = if (1 : ℕ) = 1 then 0 else (q : ℕ)
      rw [if_pos rfl]; exact Nat.lt_one_iff.mp q.isLt
    · exact (if_neg hN).symm

/-- A one-column matrix laid along every column reads, at (p, q), its entry (p, 0). -/
theorem broadcastCol_apply {α : Type} (x : (⟨2, ![M, 1]⟩ : Shape).Idx → α)
    (h : (⟨2, ![M, 1]⟩ : Shape).Broadcasts ⟨2, ![M, N]⟩) (p : Fin M) (q : Fin N) :
    broadcastTo ⟨2, ![M, N]⟩ x h (ix2 p q) = x (ix2 p (0 : Fin 1)) := by
  refine broadcastTo_apply x h (ix2 p q) (ix2 p (0 : Fin 1)) fun a => ?_
  match a with
  | ⟨0, _⟩ =>
    by_cases hM : M = 1
    · subst hM
      show (p : ℕ) = if (1 : ℕ) = 1 then 0 else (p : ℕ)
      rw [if_pos rfl]; exact Nat.lt_one_iff.mp p.isLt
    · exact (if_neg hM).symm
  | ⟨1, _⟩ => exact (if_pos rfl).symm

/-- A length-M vector recast as an M×1 matrix reads, at (p, 0), the vector's entry p. -/
theorem castCol_apply {α : Type} (v : (⟨1, ![M]⟩ : Shape).Idx → α) (h : (⟨1, ![M]⟩ : Shape).ShapeCasts ⟨2, ![M, 1]⟩)
    (p : Fin M) : shapeCast ⟨2, ![M, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

end Cert.Gcn

end
-- ==== Proof.Region0.lean ====
/-
  The node-wise product, region 0 of the program: a 100000×128 matrix times a 128×128 matrix, ten blocks of 10000 rows.

  At each grid point the body multiplies the point's block of rows by the whole right operand (both recast to a
  narrower float format first, which changes nothing over the extended reals) into a zero accumulator: entry (p, q)
  of the block is Σ_k x (p, k) · w (k, q).  Block t holds rows 10000·t … 10000·t + 9999, so what point t writes back is
  its block of the whole product, the blocks cover the array, and the array ends holding the product.
-/
import proofs.«176902_j88648124990850_1_alg».proof.Proof.Gen.KernelIdeal.Frame
import proofs.«176902_j88648124990850_1_alg».proof.Proof.Spec

set_option maxRecDepth 16384

noncomputable section

open scoped BigOperators

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's product contracts the left columns against the right rows. -/
theorem plain : PlainMatmul.IsPlain (M := 10000) (K := 128) (N := 128) dot_S10000x128_S128x128_S10000x128_1_0_0_1_n_n :=
  ⟨rfl, rfl, rfl, rfl, rfl, rfl⟩

/-- Entry (p, q) of what the body stores: Σ_k x (p, k) · w (k, q). -/
theorem payload_apply (x0 : FVec Ideal S10000x128 .f32) (x1 : FVec Ideal S128x128 .f32) (p : Fin 10000) (q : Fin 128) :
    k0_pay1 (F := Ideal) x0 x1 (ix2 p q) = ∑ k : Fin 128, x0 (ix2 p k) * x1 (ix2 k q) := by
  have e : k0_pay1 (F := Ideal) x0 x1 = fun j => FloatOps.matmul dot_S10000x128_S128x128_S10000x128_1_0_0_1_n_n none
      (truncf .bf16 x0 bitsLt_bf16_f32) (truncf .bf16 x1 bitsLt_bf16_f32)
      (constant (F := Ideal) S10000x128 .f32 0x00000000#32) j := by
    unfold k0_pay1
    simp only [shapeCast_self]
  rw [e]
  exact PlainMatmul.matmul_zero_apply (M := 10000) (K := 128) (N := 128) _ plain none
    (truncf .bf16 x0 bitsLt_bf16_f32) (truncf .bf16 x1 bitsLt_bf16_f32) p q

/-- Where each window's block sits at point t: the rows' blocks move with t, everything else stays at the origin. -/
theorem index_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point t writes back is block t of the whole product. -/
theorem flushed_eq (c : Dev nD) (t : Fin cfg0.N) :
    (dat0 V c).flushed 2 t = ((cfg0.win 2).blk t).view.read (Elt Ideal)
      (Gcn.prod (M := 100000) (K := 128) (N := 128) (V c main_v36) (V c main_arg4)) := by
  show (cfg0.win 2).cut (grid0.coords t) ((dat0 V c).after 2 t) = _
  rw [after0_2]
  unfold out0_2
  rw [View.canon_unit_zero origin]
  simp only [View.ld_unit_zero (S := S10000x128) origin, View.ld_unit_zero (S := S128x128) origin]
  obtain ⟨e0, e1, e2, e3, e4, e5⟩ := index_facts t
  funext j
  obtain ⟨p, q, rfl⟩ : ∃ (p : Fin 10000) (q : Fin 128), j = ix2 p q := ⟨j 0, j 1, eq_ix2 j⟩
  refine (payload_apply (iblk0 V c 0 t) (iblk0 V c 1 t) p q).trans ?_
  have h0 : ∀ k : Fin 128, iblk0 V c 0 t (ix2 p k)
      = V c main_v36 (ix2 (n0 := 100000) ((((cfg0.win 2).blk t).view.emb (ix2 p q)) 0) k) := fun k => by
    show V c main_v36 (((cfg0.win 0).blk t).view.emb (ix2 p k)) = _
    refine congrArg (V c main_v36) ?_
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * k.val = k.val; omega
  have h1 : ∀ k : Fin 128, iblk0 V c 1 t (ix2 k q)
      = V c main_arg4 (ix2 (n1 := 128) k ((((cfg0.win 2).blk t).view.emb (ix2 p q)) 1)) := fun k => by
    show V c main_arg4 (((cfg0.win 1).blk t).view.emb (ix2 k q)) = _
    refine congrArg (V c main_arg4) ?_
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  simp only [h0, h1]
  rfl

/-- An entry is in point t's block when each coordinate is in the block's range on its axis. -/
theorem mem_block (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v37).slice (win0_2.rect t)).set ↔ _
  rw [View.set_slice_whole, Rect.mem_set_unit]
  exact Iff.rfl

/-- Row r lies in the block of point r / 10000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  have ht : (i 0).val / 10000 < cfg0.N := by rw [hN]; omega
  obtain ⟨e0, e1, e2, e3, e4, e5⟩ := index_facts ⟨(i 0).val / 10000, ht⟩
  refine ⟨⟨(i 0).val / 10000, ht⟩, flush0_2 _, ?_⟩
  rw [mem_block]
  intro a
  match a with
  | ⟨0, _⟩ =>
    show win0_2.index ⟨(i 0).val / 10000, ht⟩ (0 : Fin 2) * 10000 ≤ (i 0).val
      ∧ (i 0).val < win0_2.index ⟨(i 0).val / 10000, ht⟩ (0 : Fin 2) * 10000 + 10000
    rw [e4]
    show (i 0).val / 10000 * 10000 ≤ (i 0).val ∧ (i 0).val < (i 0).val / 10000 * 10000 + 10000
    omega
  | ⟨1, _⟩ =>
    show win0_2.index ⟨(i 0).val / 10000, ht⟩ (1 : Fin 2) * 128 ≤ (i 1).val
      ∧ (i 1).val < win0_2.index ⟨(i 0).val / 10000, ht⟩ (1 : Fin 2) * 128 + 128
    omega

/-- The output array after the region: the product of the two input arrays as the region finds them. -/
theorem final (c : Dev nD) :
    (dat0 V c).arrAt 2 cfg0.N = Gcn.prod (M := 100000) (K := 128) (N := 128) (V c main_v36) (V c main_arg4) :=
  (dat0 V c).arrAt_eq_of_cover 2 _ (fun t _ => flushed_eq V c t) (cover)

end Cert.KernelIdeal.Region0

end
-- ==== Proof.Region1.lean ====
/-
  Bias and positive part, region 1 of the program: a 100000×128 matrix, ten blocks of 10000 rows, and a 1×128 row.

  At each grid point the body adds the row to every row of the point's block and takes the maximum with zero: entry
  (p, q) of the block is max (a (p, q) + b (0, q)) 0.  Block t holds rows 10000·t … 10000·t + 9999 and the row is the
  same at every point, so what point t writes back is its block of the whole array's bias-and-positive-part, the blocks
  cover the array, and the array ends holding it.
-/
import proofs.«176902_j88648124990850_1_alg».proof.Proof.Gen.KernelIdeal.Frame
import proofs.«176902_j88648124990850_1_alg».proof.Proof.Spec

set_option maxRecDepth 16384

noncomputable section

open scoped BigOperators

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- Entry (p, q) of what the body stores: max (a (p, q) + b (0, q)) 0. -/
theorem payload_apply (x0 : FVec Ideal S10000x128 .f32) (x1 : FVec Ideal S1x128 .f32) (p : Fin 10000) (q : Fin 128) :
    k1_pay1 (F := Ideal) x0 x1 (ix2 p q) = max (x0 (ix2 p q) + x1 (ix2 (0 : Fin 1) q)) (Ideal.ofBits .f32 0x00000000#32) := by
  have e : k1_pay1 (F := Ideal) x0 x1 = maximumf (addf x0 (broadcastTo S10000x128 x1 broadcasts_S1x128_S10000x128))
      (broadcast S10000x128 (Scalar.ofBits (F := Ideal) .f32 0x00000000#32)) := by
    unfold k1_pay1
    simp only [shapeCast_self]
  rw [e]
  show max (x0 (ix2 p q) + broadcastTo S10000x128 x1 broadcasts_S1x128_S10000x128 (ix2 p q)) _ = _
  rw [PlainMatmul.broadcastRow_apply (M := 10000) (N := 128) x1 broadcasts_S1x128_S10000x128 p q]
  rfl

/-- Where each window's block sits at point t: the rows' blocks move with t, the row stays at the origin. -/
theorem index_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- What point t writes back is block t of the whole array's bias-and-positive-part. -/
theorem flushed_eq (c : Dev nD) (t : Fin cfg1.N) :
    (dat1 V c).flushed 2 t = ((cfg1.win 2).blk t).view.read (Elt Ideal)
      (Gcn.biasRelu (M := 100000) (N := 128) (V c main_v50) (V c main_v51)) := by
  show (cfg1.win 2).cut (grid1.coords t) ((dat1 V c).after 2 t) = _
  rw [after1_2]
  unfold out1_2
  rw [View.canon_unit_zero origin]
  simp only [View.ld_unit_zero (S := S10000x128) origin, View.ld_unit_zero (S := S1x128) origin]
  obtain ⟨e0, e1, e2, e3, e4, e5⟩ := index_facts t
  funext j
  obtain ⟨p, q, rfl⟩ : ∃ (p : Fin 10000) (q : Fin 128), j = ix2 p q := ⟨j 0, j 1, eq_ix2 j⟩
  refine (payload_apply (iblk1 V c 0 t) (iblk1 V c 1 t) p q).trans ?_
  have h0 : iblk1 V c 0 t (ix2 p q) = V c main_v50 (((cfg1.win 2).blk t).view.emb (ix2 p q)) := by
    show V c main_v50 (((cfg1.win 0).blk t).view.emb (ix2 p q)) = _
    refine congrArg (V c main_v50) ?_
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 128 + 1 * q.val = win1_2.index t (1 : Fin 2) * 128 + 1 * q.val; omega
  have h1 : iblk1 V c 1 t (ix2 (0 : Fin 1) q)
      = V c main_v51 (ix2 (0 : Fin 1) (n1 := 128) ((((cfg1.win 2).blk t).view.emb (ix2 p q)) 1)) := by
    show V c main_v51 (((cfg1.win 1).blk t).view.emb (ix2 (0 : Fin 1) q)) = _
    refine congrArg (V c main_v51) ?_
    funext a; apply Fin.ext
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  rw [h0, h1]
  rfl

/-- An entry is in point t's block when each coordinate is in the block's range on its axis. -/
theorem mem_block (t : Fin cfg1.N) (i : S100000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v52).slice (win1_2.rect t)).set ↔ _
  rw [View.set_slice_whole, Rect.mem_set_unit]
  exact Iff.rfl

/-- Row r lies in the block of point r / 10000. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 10 := N_1
  have ht : (i 0).val / 10000 < cfg1.N := by rw [hN]; omega
  obtain ⟨e0, e1, e2, e3, e4, e5⟩ := index_facts ⟨(i 0).val / 10000, ht⟩
  refine ⟨⟨(i 0).val / 10000, ht⟩, flush1_2 _, ?_⟩
  rw [mem_block]
  intro a
  match a with
  | ⟨0, _⟩ =>
    show win1_2.index ⟨(i 0).val / 10000, ht⟩ (0 : Fin 2) * 10000 ≤ (i 0).val
      ∧ (i 0).val < win1_2.index ⟨(i 0).val / 10000, ht⟩ (0 : Fin 2) * 10000 + 10000
    rw [e4]
    show (i 0).val / 10000 * 10000 ≤ (i 0).val ∧ (i 0).val < (i 0).val / 10000 * 10000 + 10000
    omega
  | ⟨1, _⟩ =>
    show win1_2.index ⟨(i 0).val / 10000, ht⟩ (1 : Fin 2) * 128 ≤ (i 1).val
      ∧ (i 1).val < win1_2.index ⟨(i 0).val / 10000, ht⟩ (1 : Fin 2) * 128 + 128
    omega

/-- The output array after the region: bias and positive part of the two input arrays as the region finds them. -/
theorem final (c : Dev nD) :
    (dat1 V c).arrAt 2 cfg1.N = Gcn.biasRelu (M := 100000) (N := 128) (V c main_v50) (V c main_v51) :=
  (dat1 V c).arrAt_eq_of_cover 2 _ (fun t _ => flushed_eq V c t) (cover)

end Cert.KernelIdeal.Region1

end
-- ==== Proof.Region2.lean ====
/-
  The node-wise product, region 2 of the program: a 100000×128 matrix times a 128×128 matrix, ten blocks of 10000 rows.

  At each grid point the body multiplies the point's block of rows by the whole right operand (both recast to a
  narrower float format first, which changes nothing over the extended reals) into a zero accumulator: entry (p, q)
  of the block is Σ_k x (p, k) · w (k, q).  Block t holds rows 10000·t … 10000·t + 9999, so what point t writes back is
  its block of the whole product, the blocks cover the array, and the array ends holding the product.
-/
import proofs.«176902_j88648124990850_1_alg».proof.Proof.Gen.KernelIdeal.Frame
import proofs.«176902_j88648124990850_1_alg».proof.Proof.Spec

set_option maxRecDepth 16384

noncomputable section

open scoped BigOperators

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's product contracts the left columns against the right rows. -/
theorem plain : PlainMatmul.IsPlain (M := 10000) (K := 128) (N := 128) dot_S10000x128_S128x128_S10000x128_1_0_0_1_n_n :=
  ⟨rfl, rfl, rfl, rfl, rfl, rfl⟩

/-- Entry (p, q) of what the body stores: Σ_k x (p, k) · w (k, q). -/
theorem payload_apply (x0 : FVec Ideal S10000x128 .f32) (x1 : FVec Ideal S128x128 .f32) (p : Fin 10000) (q : Fin 128) :
    k2_pay1 (F := Ideal) x0 x1 (ix2 p q) = ∑ k : Fin 128, x0 (ix2 p k) * x1 (ix2 k q) := by
  have e : k2_pay1 (F := Ideal) x0 x1 = fun j => FloatOps.matmul dot_S10000x128_S128x128_S10000x128_1_0_0_1_n_n none
      (truncf .bf16 x0 bitsLt_bf16_f32) (truncf .bf16 x1 bitsLt_bf16_f32)
      (constant (F := Ideal) S10000x128 .f32 0x00000000#32) j := by
    unfold k2_pay1
    simp only [shapeCast_self]
  rw [e]
  exact PlainMatmul.matmul_zero_apply (M := 10000) (K := 128) (N := 128) _ plain none
    (truncf .bf16 x0 bitsLt_bf16_f32) (truncf .bf16 x1 bitsLt_bf16_f32) p q

/-- Where each window's block sits at point t: the rows' blocks move with t, everything else stays at the origin. -/
theorem index_facts : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What point t writes back is block t of the whole product. -/
theorem flushed_eq (c : Dev nD) (t : Fin cfg2.N) :
    (dat2 V c).flushed 2 t = ((cfg2.win 2).blk t).view.read (Elt Ideal)
      (Gcn.prod (M := 100000) (K := 128) (N := 128) (V c main_v52) (V c main_arg6)) := by
  show (cfg2.win 2).cut (grid2.coords t) ((dat2 V c).after 2 t) = _
  rw [after2_2]
  unfold out2_2
  rw [View.canon_unit_zero origin]
  simp only [View.ld_unit_zero (S := S10000x128) origin, View.ld_unit_zero (S := S128x128) origin]
  obtain ⟨e0, e1, e2, e3, e4, e5⟩ := index_facts t
  funext j
  obtain ⟨p, q, rfl⟩ : ∃ (p : Fin 10000) (q : Fin 128), j = ix2 p q := ⟨j 0, j 1, eq_ix2 j⟩
  refine (payload_apply (iblk2 V c 0 t) (iblk2 V c 1 t) p q).trans ?_
  have h0 : ∀ k : Fin 128, iblk2 V c 0 t (ix2 p k)
      = V c main_v52 (ix2 (n0 := 100000) ((((cfg2.win 2).blk t).view.emb (ix2 p q)) 0) k) := fun k => by
    show V c main_v52 (((cfg2.win 0).blk t).view.emb (ix2 p k)) = _
    refine congrArg (V c main_v52) ?_
    funext a; apply Fin.ext
    match a with
    | ⟨0, _⟩ => show win2_0.index t (0 : Fin 2) * 10000 + 1 * p.val = win2_2.index t (0 : Fin 2) * 10000 + 1 * p.val; omega
    | ⟨1, _⟩ => show win2_0.index t (1 : Fin 2) * 128 + 1 * k.val = k.val; omega
  have h1 : ∀ k : Fin 128, iblk2 V c 1 t (ix2 k q)
      = V c main_arg6 (ix2 (n1 := 128) k ((((cfg2.win 2).blk t).view.emb (ix2 p q)) 1)) := fun k => by
    show V c main_arg6 (((cfg2.win 1).blk t).view.emb (ix2 k q)) = _
    refine congrArg (V c main_arg6) ?_
    funext a; apply Fin.ext
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega
  simp only [h0, h1]
  rfl

/-- An entry is in point t's block when each coordinate is in the block's range on its axis. -/
theorem mem_block (t : Fin cfg2.N) (i : S100000x128.Idx) :
    i ∈ ((cfg2.win 2).blk t).view.set ↔ ∀ a : Fin 2, win2_2.index t a * S10000x128.size a ≤ (i a).val
      ∧ (i a).val < win2_2.index t a * S10000x128.size a + S10000x128.size a := by
  show i ∈ ((View.whole main_v53).slice (win2_2.rect t)).set ↔ _
  rw [View.set_slice_whole, Rect.mem_set_unit]
  exact Iff.rfl

/-- Row r lies in the block of point r / 10000. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 10 := N_2
  have ht : (i 0).val / 10000 < cfg2.N := by rw [hN]; omega
  obtain ⟨e0, e1, e2, e3, e4, e5⟩ := index_facts ⟨(i 0).val / 10000, ht⟩
  refine ⟨⟨(i 0).val / 10000, ht⟩, flush2_2 _, ?_⟩
  rw [mem_block]
  intro a
  match a with
  | ⟨0, _⟩ =>
    show win2_2.index ⟨(i 0).val / 10000, ht⟩ (0 : Fin 2) * 10000 ≤ (i 0).val
      ∧ (i 0).val < win2_2.index ⟨(i 0).val / 10000, ht⟩ (0 : Fin 2) * 10000 + 10000
    rw [e4]
    show (i 0).val / 10000 * 10000 ≤ (i 0).val ∧ (i 0).val < (i 0).val / 10000 * 10000 + 10000
    omega
  | ⟨1, _⟩ =>
    show win2_2.index ⟨(i 0).val / 10000, ht⟩ (1 : Fin 2) * 128 ≤ (i 1).val
      ∧ (i 1).val < win2_2.index ⟨(i 0).val / 10000, ht⟩ (1 : Fin 2) * 128 + 128
    omega

/-- The output array after the region: the product of the two input arrays as the region finds them. -/
theorem final (c : Dev nD) :
    (dat2 V c).arrAt 2 cfg2.N = Gcn.prod (M := 100000) (K := 128) (N := 128) (V c main_v52) (V c main_arg6) :=
  (dat2 V c).arrAt_eq_of_cover 2 _ (fun t _ => flushed_eq V c t) (cover)

end Cert.KernelIdeal.Region2

end
-- ==== Proof.Region3.lean ====
/-
  Bias and positive part, region 3 of the program: a 100000×128 matrix, ten blocks of 10000 rows, and a 1×128 row.

  At each grid point the body adds the row to every row of the point's block and takes the maximum with zero: entry
  (p, q) of the block is max (a (p, q) + b (0, q)) 0.  Block t holds rows 10000·t … 10000·t + 9999 and the row is the
  same at every point, so what point t writes back is its block of the whole array's bias-and-positive-part, the blocks
  cover the array, and the array ends holding it.
-/
import proofs.«176902_j88648124990850_1_alg».proof.Proof.Gen.KernelIdeal.Frame
import proofs.«176902_j88648124990850_1_alg».proof.Proof.Spec

set_option maxRecDepth 16384

noncomputable section

open scoped BigOperators

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- Entry (p, q) of what the body stores: max (a (p, q) + b (0, q)) 0. -/
theorem payload_apply (x0 : FVec Ideal S10000x128 .f32) (x1 : FVec Ideal S1x128 .f32) (p : Fin 10000) (q : Fin 128) :
    k3_pay1 (F := Ideal) x0 x1 (ix2 p q) = max (x0 (ix2 p q) + x1 (ix2 (0 : Fin 1) q)) (Ideal.ofBits .f32 0x00000000#32) := by
  have e : k3_pay1 (F := Ideal) x0 x1 = maximumf (addf x0 (broadcastTo S10000x128 x1 broadcasts_S1x128_S10000x128))
      (broadcast S10000x128 (Scalar.ofBits (F := Ideal) .f32 0x00000000#32)) := by
    unfold k3_pay1
    simp only [shapeCast_self]
  rw [e]
  show max (x0 (ix2 p q) + broadcastTo S10000x128 x1 broadcasts_S1x128_S10000x128 (ix2 p q)) _ = _
  rw [PlainMatmul.broadcastRow_apply (M := 10000) (N := 128) x1 broadcasts_S1x128_S10000x128 p q]
  rfl

/-- Where each window's block sits at point t: the rows' blocks move with t, the row stays at the origin. -/
theorem index_facts : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- What point t writes back is block t of the whole array's bias-and-positive-part. -/
theorem flushed_eq (c : Dev nD) (t : Fin cfg3.N) :
    (dat3 V c).flushed 2 t = ((cfg3.win 2).blk t).view.read (Elt Ideal)
      (Gcn.biasRelu (M := 100000) (N := 128) (V c main_v66) (V c main_v67)) := by
  show (cfg3.win 2).cut (grid3.coords t) ((dat3 V c).after 2 t) = _
  rw [after3_2]
  unfold out3_2
  rw [View.canon_unit_zero origin]
  simp only [View.ld_unit_zero (S := S10000x128) origin, View.ld_unit_zero (S := S1x128) origin]
  obtain ⟨e0, e1, e2, e3, e4, e5⟩ := index_facts t
  funext j
  obtain ⟨p, q, rfl⟩ : ∃ (p : Fin 10000) (q : Fin 128), j = ix2 p q := ⟨j 0, j 1, eq_ix2 j⟩
  refine (payload_apply (iblk3 V c 0 t) (iblk3 V c 1 t) p q).trans ?_
  have h0 : iblk3 V c 0 t (ix2 p q) = V c main_v66 (((cfg3.win 2).blk t).view.emb (ix2 p q)) := by
    show V c main_v66 (((cfg3.win 0).blk t).view.emb (ix2 p q)) = _
    refine congrArg (V c main_v66) ?_
    funext a; apply Fin.ext
    match a with
    | ⟨0, _⟩ => show win3_0.index t (0 : Fin 2) * 10000 + 1 * p.val = win3_2.index t (0 : Fin 2) * 10000 + 1 * p.val; omega
    | ⟨1, _⟩ => show win3_0.index t (1 : Fin 2) * 128 + 1 * q.val = win3_2.index t (1 : Fin 2) * 128 + 1 * q.val; omega
  have h1 : iblk3 V c 1 t (ix2 (0 : Fin 1) q)
      = V c main_v67 (ix2 (0 : Fin 1) (n1 := 128) ((((cfg3.win 2).blk t).view.emb (ix2 p q)) 1)) := by
    show V c main_v67 (((cfg3.win 1).blk t).view.emb (ix2 (0 : Fin 1) q)) = _
    refine congrArg (V c main_v67) ?_
    funext a; apply Fin.ext
    match a with
    | ⟨0, _⟩ => show win3_1.index t (0 : Fin 2) * 1 + 1 * 0 = 0; omega
    | ⟨1, _⟩ => show win3_1.index t (1 : Fin 2) * 128 + 1 * q.val = win3_2.index t (1 : Fin 2) * 128 + 1 * q.val; omega
  rw [h0, h1]
  rfl

/-- An entry is in point t's block when each coordinate is in the block's range on its axis. -/
theorem mem_block (t : Fin cfg3.N) (i : S100000x128.Idx) :
    i ∈ ((cfg3.win 2).blk t).view.set ↔ ∀ a : Fin 2, win3_2.index t a * S10000x128.size a ≤ (i a).val
      ∧ (i a).val < win3_2.index t a * S10000x128.size a + S10000x128.size a := by
  show i ∈ ((View.whole main_v68).slice (win3_2.rect t)).set ↔ _
  rw [View.set_slice_whole, Rect.mem_set_unit]
  exact Iff.rfl

/-- Row r lies in the block of point r / 10000. -/
theorem cover (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 10 := N_3
  have ht : (i 0).val / 10000 < cfg3.N := by rw [hN]; omega
  obtain ⟨e0, e1, e2, e3, e4, e5⟩ := index_facts ⟨(i 0).val / 10000, ht⟩
  refine ⟨⟨(i 0).val / 10000, ht⟩, flush3_2 _, ?_⟩
  rw [mem_block]
  intro a
  match a with
  | ⟨0, _⟩ =>
    show win3_2.index ⟨(i 0).val / 10000, ht⟩ (0 : Fin 2) * 10000 ≤ (i 0).val
      ∧ (i 0).val < win3_2.index ⟨(i 0).val / 10000, ht⟩ (0 : Fin 2) * 10000 + 10000
    rw [e4]
    show (i 0).val / 10000 * 10000 ≤ (i 0).val ∧ (i 0).val < (i 0).val / 10000 * 10000 + 10000
    omega
  | ⟨1, _⟩ =>
    show win3_2.index ⟨(i 0).val / 10000, ht⟩ (1 : Fin 2) * 128 ≤ (i 1).val
      ∧ (i 1).val < win3_2.index ⟨(i 0).val / 10000, ht⟩ (1 : Fin 2) * 128 + 128
    omega

/-- The output array after the region: bias and positive part of the two input arrays as the region finds them. -/
theorem final (c : Dev nD) :
    (dat3 V c).arrAt 2 cfg3.N = Gcn.biasRelu (M := 100000) (N := 128) (V c main_v66) (V c main_v67) :=
  (dat3 V c).arrAt_eq_of_cover 2 _ (fun t _ => flushed_eq V c t) (cover)

end Cert.KernelIdeal.Region3

end
-- ==== Proof.Region4.lean ====
/-
  The pooled classifier, region 4 of the program: one grid point, every window the whole of its array.

  The body divides each row of the 512×128 sums by that row's count (taken as one when smaller), multiplies by the
  128×10 weights (both factors recast to a narrower float format first, which changes nothing over the extended
  reals) into a zero accumulator, and adds the 1×10 row: entry (g, c) is
  Σ_k (s (g, k) / max (n (g, 0)) 1) · w (k, c) + b (0, c).  The one point writes the whole result back.
-/
import proofs.«176902_j88648124990850_1_alg».proof.Proof.Gen.KernelIdeal.Frame
import proofs.«176902_j88648124990850_1_alg».proof.Proof.Spec

set_option maxRecDepth 16384

noncomputable section

open scoped BigOperators

namespace Cert.KernelIdeal.Region4

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's product contracts the left columns against the right rows. -/
theorem plain : PlainMatmul.IsPlain (M := 512) (K := 128) (N := 10) dot_S512x128_S128x10_S512x10_1_0_0_1_n_n :=
  ⟨rfl, rfl, rfl, rfl, rfl, rfl⟩

/-- Entry (g, c) of what the body stores. -/
theorem payload_apply (v0 : FVec Ideal S512x1 .f32) (v4 : FVec Ideal S512x128 .f32) (v9 : FVec Ideal S128x10 .f32)
    (v12 : FVec Ideal S1x10 .f32) (p : Fin 512) (q : Fin 10) :
    k4_pay1 (F := Ideal) v0 v4 v9 v12 (ix2 p q)
      = (∑ k : Fin 128, Ideal.div (v4 (ix2 p k)) (max (v0 (ix2 p (0 : Fin 1))) (Ideal.ofBits .f32 0x3F800000#32)) * v9 (ix2 k q))
        + v12 (ix2 (0 : Fin 1) q) := by
  have e : k4_pay1 (F := Ideal) v0 v4 v9 v12 = fun j => FloatOps.matmul dot_S512x128_S128x10_S512x10_1_0_0_1_n_n none
        (truncf .bf16 (divf v4 (broadcastTo S512x128 (maximumf v0 (broadcast S512x1 (Scalar.ofBits (F := Ideal) .f32 0x3F800000#32)))
          broadcasts_S512x1_S512x128)) bitsLt_bf16_f32) (truncf .bf16 v9 bitsLt_bf16_f32)
        (constant (F := Ideal) S512x10 .f32 0x00000000#32) j + broadcastTo S512x10 v12 broadcasts_S1x10_S512x10 j := by
    unfold k4_pay1
    simp only [shapeCast_self]
    rfl
  rw [e]
  refine (PlainMatmul.entry_apply (M := 512) (K := 128) (N := 10) _ plain none id
    (truncf .bf16 (divf v4 (broadcastTo S512x128 (maximumf v0 (broadcast S512x1 (Scalar.ofBits (F := Ideal) .f32 0x3F800000#32)))
      broadcasts_S512x1_S512x128)) bitsLt_bf16_f32) (truncf .bf16 v9 bitsLt_bf16_f32) v12 broadcasts_S1x10_S512x10 p q).trans ?_
  refine congrArg (· + v12 (ix2 (0 : Fin 1) q)) (Finset.sum_congr rfl fun k _ => ?_)
  show Ideal.div (v4 (ix2 p k)) (broadcastTo S512x128 (maximumf v0 (broadcast S512x1 (Scalar.ofBits (F := Ideal) .f32 0x3F800000#32)))
      broadcasts_S512x1_S512x128 (ix2 p k)) * v9 (ix2 k q) = _
  rw [Gcn.broadcastCol_apply (M := 512) (N := 128) _ broadcasts_S512x1_S512x128 p k]
  rfl

/-- Every window's block sits at the origin at the one point. -/
theorem index_facts : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

/-- What the point writes back is the whole pooled classifier of the arrays as the region finds them. -/
theorem flushed_eq (c : Dev nD) (t : Fin cfg4.N) :
    (dat4 V c).flushed 4 t = ((cfg4.win 4).blk t).view.read (Elt Ideal)
      (Gcn.poolLinear (M := 512) (K := 128) (N := 10) (V c main_v71) (V c main_v76) (V c main_arg8) (V c main_v77)) := by
  show (cfg4.win 4).cut (grid4.coords t) ((dat4 V c).after 4 t) = _
  rw [after4_4]
  unfold out4_4
  rw [View.canon_unit_zero origin]
  simp only [View.ld_unit_zero (S := S512x128) origin, View.ld_unit_zero (S := S512x1) origin,
    View.ld_unit_zero (S := S128x10) origin, View.ld_unit_zero (S := S1x10) origin]
  obtain ⟨a0, a1, b0, b1, c0, c1, d0, d1, o0, o1⟩ := index_facts t
  funext j
  obtain ⟨p, q, rfl⟩ : ∃ (p : Fin 512) (q : Fin 10), j = ix2 p q := ⟨j 0, j 1, eq_ix2 j⟩
  refine (payload_apply (iblk4 V c 1 t) (iblk4 V c 0 t) (iblk4 V c 2 t) (iblk4 V c 3 t) p q).trans ?_
  have h4 : ((cfg4.win 4).blk t).view.emb (ix2 p q) = (ix2 p q : S512x10.Idx) := by
    funext a; apply Fin.ext
    match a with
    | ⟨0, _⟩ => show win4_4.index t (0 : Fin 2) * 512 + 1 * p.val = p.val; omega
    | ⟨1, _⟩ => show win4_4.index t (1 : Fin 2) * 10 + 1 * q.val = q.val; omega
  show _ = Gcn.poolLinear (M := 512) (K := 128) (N := 10) (V c main_v71) (V c main_v76) (V c main_arg8) (V c main_v77)
    (((cfg4.win 4).blk t).view.emb (ix2 p q))
  rw [h4, Gcn.poolLinear_apply]
  have h0 : ∀ k : Fin 128, iblk4 V c 0 t (ix2 p k) = V c main_v71 (ix2 p k) := fun k => by
    show V c main_v71 (((cfg4.win 0).blk t).view.emb (ix2 p k)) = V c main_v71 (ix2 p k)
    refine congrArg (V c main_v71) ?_
    funext a; apply Fin.ext
    match a with
    | ⟨0, _⟩ => show win4_0.index t (0 : Fin 2) * 512 + 1 * p.val = p.val; omega
    | ⟨1, _⟩ => show win4_0.index t (1 : Fin 2) * 128 + 1 * k.val = k.val; omega
  have h1 : iblk4 V c 1 t (ix2 p (0 : Fin 1)) = V c main_v76 (ix2 p (0 : Fin 1)) := by
    show V c main_v76 (((cfg4.win 1).blk t).view.emb (ix2 p (0 : Fin 1))) = V c main_v76 (ix2 p (0 : Fin 1))
    refine congrArg (V c main_v76) ?_
    funext a; apply Fin.ext
    match a with
    | ⟨0, _⟩ => show win4_1.index t (0 : Fin 2) * 512 + 1 * p.val = p.val; omega
    | ⟨1, _⟩ => show win4_1.index t (1 : Fin 2) * 1 + 1 * 0 = 0; omega
  have h2 : ∀ k : Fin 128, iblk4 V c 2 t (ix2 k q) = V c main_arg8 (ix2 k q) := fun k => by
    show V c main_arg8 (((cfg4.win 2).blk t).view.emb (ix2 k q)) = V c main_arg8 (ix2 k q)
    refine congrArg (V c main_arg8) ?_
    funext a; apply Fin.ext
    match a with
    | ⟨0, _⟩ => show win4_2.index t (0 : Fin 2) * 128 + 1 * k.val = k.val; omega
    | ⟨1, _⟩ => show win4_2.index t (1 : Fin 2) * 10 + 1 * q.val = q.val; omega
  have h3 : iblk4 V c 3 t (ix2 (0 : Fin 1) q) = V c main_v77 (ix2 (0 : Fin 1) q) := by
    show V c main_v77 (((cfg4.win 3).blk t).view.emb (ix2 (0 : Fin 1) q)) = V c main_v77 (ix2 (0 : Fin 1) q)
    refine congrArg (V c main_v77) ?_
    funext a; apply Fin.ext
    match a with
    | ⟨0, _⟩ => show win4_3.index t (0 : Fin 2) * 1 + 1 * 0 = 0; omega
    | ⟨1, _⟩ => show win4_3.index t (1 : Fin 2) * 10 + 1 * q.val = q.val; omega
  rw [h1, h3]
  refine congrArg (· + V c main_v77 (ix2 (0 : Fin 1) q)) (Finset.sum_congr rfl fun k _ => ?_)
  rw [h0 k, h2 k]

/-- An entry is in the point's block when each coordinate is in the block's range on its axis. -/
theorem mem_block (t : Fin cfg4.N) (i : S512x10.Idx) :
    i ∈ ((cfg4.win 4).blk t).view.set ↔ ∀ a : Fin 2, win4_4.index t a * S512x10.size a ≤ (i a).val
      ∧ (i a).val < win4_4.index t a * S512x10.size a + S512x10.size a := by
  show i ∈ ((View.whole main_v78).slice (win4_4.rect t)).set ↔ _
  rw [View.set_slice_whole, Rect.mem_set_unit]
  exact Iff.rfl

/-- Every entry lies in the one point's block. -/
theorem cover (i : S512x10.Idx) :
    ∃ t : Fin cfg4.N, (cfg4.win 4).flush t = true ∧ i ∈ ((cfg4.win 4).blk t).view.set := by
  have hi0 : (i 0).val < 512 := (i 0).isLt
  have hi1 : (i 1).val < 10 := (i 1).isLt
  obtain ⟨a0, a1, b0, b1, c0, c1, d0, d1, o0, o1⟩ := index_facts t4_0
  refine ⟨t4_0, flush4_4 _, ?_⟩
  rw [mem_block]
  intro a
  match a with
  | ⟨0, _⟩ =>
    show win4_4.index t4_0 (0 : Fin 2) * 512 ≤ (i 0).val ∧ (i 0).val < win4_4.index t4_0 (0 : Fin 2) * 512 + 512
    omega
  | ⟨1, _⟩ =>
    show win4_4.index t4_0 (1 : Fin 2) * 10 ≤ (i 1).val ∧ (i 1).val < win4_4.index t4_0 (1 : Fin 2) * 10 + 10
    omega

/-- The result array after the region: the pooled classifier of the four input arrays as the region finds them. -/
theorem final (c : Dev nD) :
    (dat4 V c).arrAt 4 cfg4.N
      = Gcn.poolLinear (M := 512) (K := 128) (N := 10) (V c main_v71) (V c main_v76) (V c main_arg8) (V c main_v77) :=
  (dat4 V c).arrAt_eq_of_cover 4 _ (fun t _ => flushed_eq V c t) (cover)

end Cert.KernelIdeal.Region4

end
-- ==== Proof.RefStagesDense.lean ====
/-
  The reference's dense stages, stated through the same whole-array functions as the kernel's regions.

  * Each of its two node-wise products is `Gcn.prod` of the stage before it and the weight matrix.
  * Each bias-add followed by the positive part is `Gcn.biasRelu` of the aggregated messages and the bias recast as a
    one-row matrix: the reference lays the bias along a new leading axis and then down the rows, which reads the same
    entry b (q) at (p, q).
  * The mean pooling, the classifier product and its bias are `Gcn.poolLinear` of the per-graph sums, the per-graph
    counts recast as a one-column matrix, the classifier weights and the classifier bias recast as a one-row matrix:
    the reference clamps the counts at one before laying them along the columns, which reads max (n (g)) 1 at (g, k).
  * The second layer recomputes the edge lists with self-loops and the normalisation; they are the first layer's.
-/
import proofs.«176902_j88648124990850_1_alg».proof.Proof.RefReadPatched
import proofs.«176902_j88648124990850_1_alg».proof.Proof.Spec

noncomputable section

open scoped BigOperators

namespace Cert.ReferenceIdeal.Stages

open Cert.ReferenceIdeal Cert.ReferenceIdeal.ReadP
open Idealize.ShloMosaic Idealize.ShloMosaic.ValueIdx

/-- The node-wise products contract the left columns against the right rows. -/
theorem plainNode : PlainMatmul.IsPlain (M := 100000) (K := 128) (N := 128) dot_S100000x128_S128x128_S100000x128_1_0_0_1_n_n :=
  ⟨rfl, rfl, rfl, rfl, rfl, rfl⟩

/-- So does the classifier's product. -/
theorem plainCls : PlainMatmul.IsPlain (M := 512) (K := 128) (N := 10) dot_S512x128_S128x10_S512x10_1_0_0_1_n_n :=
  ⟨rfl, rfl, rfl, rfl, rfl, rfl⟩

variable (x0 : (⟨S100000, .i32⟩ : BufTy).Contents (Elt Ideal)) (x1 : (⟨S2x1600000, .i32⟩ : BufTy).Contents (Elt Ideal))
  (x2 : (⟨S100000, .i32⟩ : BufTy).Contents (Elt Ideal)) (x3 : (⟨S50000x128, .f32⟩ : BufTy).Contents (Elt Ideal))
  (x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S128x10, .f32⟩ : BufTy).Contents (Elt Ideal)) (x9 : (⟨S10, .f32⟩ : BufTy).Contents (Elt Ideal))

/-- The first layer's product. -/
theorem product1 : val_main_v11 (F := Ideal) x0 x3 x4
    = Gcn.prod (M := 100000) (K := 128) (N := 128) (val_main_v10 (F := Ideal) x0 x3) x4 := by
  unfold val_main_v11
  exact Gcn.dotGeneral_plain (M := 100000) (K := 128) (N := 128) _ plainNode none _ _

/-- The second layer's product. -/
theorem product2 : val_main_v55 (F := Ideal) x0 x1 x3 x4 x5 x6
    = Gcn.prod (M := 100000) (K := 128) (N := 128) (val_main_v54 (F := Ideal) x0 x1 x3 x4 x5) x6 := by
  unfold val_main_v55
  exact Gcn.dotGeneral_plain (M := 100000) (K := 128) (N := 128) _ plainNode none _ _

/-- The first layer's bias and positive part. -/
theorem biasRelu1 (h : S128.ShapeCasts S1x128) : val_main_v54 (F := Ideal) x0 x1 x3 x4 x5
    = Gcn.biasRelu (M := 100000) (N := 128) (val_main_v50 (F := Ideal) x0 x1 x3 x4) (shapeCast S1x128 x5 h) := by
  funext i
  obtain ⟨p, q, rfl⟩ : ∃ (p : Fin 100000) (q : Fin 128), i = ix2 p q := ⟨i 0, i 1, eq_ix2 i⟩
  rw [val_main_v54_apply, val_main_v53_apply, val_main_v52_apply, val_main_v51_apply, val_main_call1_v0_apply,
    val_main_call1_cst_apply, Gcn.biasRelu_apply, Gcn.castRow_apply (N := 128) x5 h q]
  have e : idx_main_v51 (idx_main_v52 (ix2 p q)) = ix1 q := by
    funext a; match a with | ⟨0, _⟩ => rfl
  rw [e]
  rfl

/-- The second layer's bias and positive part. -/
theorem biasRelu2 (h : S128.ShapeCasts S1x128) : val_main_v98 (F := Ideal) x0 x1 x3 x4 x5 x6 x7
    = Gcn.biasRelu (M := 100000) (N := 128) (val_main_v94 (F := Ideal) x0 x1 x3 x4 x5 x6) (shapeCast S1x128 x7 h) := by
  funext i
  obtain ⟨p, q, rfl⟩ : ∃ (p : Fin 100000) (q : Fin 128), i = ix2 p q := ⟨i 0, i 1, eq_ix2 i⟩
  rw [val_main_v98_apply, val_main_v97_apply, val_main_v96_apply, val_main_v95_apply, val_main_call3_v0_apply,
    val_main_call3_cst_apply, Gcn.biasRelu_apply, Gcn.castRow_apply (N := 128) x7 h q]
  have e : idx_main_v95 (idx_main_v96 (ix2 p q)) = ix1 q := by
    funext a; match a with | ⟨0, _⟩ => rfl
  rw [e]
  rfl

/-- The second layer's edge sources with self-loops are the first layer's. -/
theorem sources2 : val_main_v57 (F := Ideal) x1 = val_main_v13 (F := Ideal) x1 := rfl
/-- The second layer's edge targets with self-loops are the first layer's. -/
theorem targets2 : val_main_v58 (F := Ideal) x1 = val_main_v14 (F := Ideal) x1 := rfl

/-- The second layer's normalisation coefficients are the first layer's. -/
theorem norm2 : val_main_v81 (F := Ideal) x1 = val_main_v37 (F := Ideal) x1 := rfl

/-- Mean pooling, the classifier product and its bias. -/
theorem pooled (hn : S512.ShapeCasts S512x1) (hb : S10.ShapeCasts S1x10) :
    val_main_v114 (F := Ideal) x0 x1 x2 x3 x4 x5 x6 x7 x8 x9
      = Gcn.poolLinear (M := 512) (K := 128) (N := 10) (val_main_v101 (F := Ideal) x0 x1 x2 x3 x4 x5 x6 x7)
          (shapeCast S512x1 (val_main_v105 (F := Ideal) x2) hn) x8 (shapeCast S1x10 x9 hb) := by
  funext i
  obtain ⟨p, q, rfl⟩ : ∃ (p : Fin 512) (q : Fin 10), i = ix2 p q := ⟨i 0, i 1, eq_ix2 i⟩
  rw [val_main_v114_apply, val_main_v111_apply, val_main_v113_apply, val_main_v112_apply, Gcn.poolLinear_apply,
    Gcn.castRow_apply (N := 10) x9 hb q, Gcn.castCol_apply (M := 512) (val_main_v105 (F := Ideal) x2) hn p]
  have eb : idx_main_v112 (idx_main_v113 (ix2 p q)) = ix1 q := by
    funext a; match a with | ⟨0, _⟩ => rfl
  rw [eb]
  refine congrArg (· + x9 (ix1 q)) (Finset.sum_congr rfl fun k _ => ?_)
  have el : lidx_main_v111 (ix2 p q) k = ix2 p k := by
    funext a; match a with | ⟨0, _⟩ => rfl | ⟨1, _⟩ => rfl
  have er : ridx_main_v111 (ix2 p q) k = ix2 k q := by
    funext a; match a with | ⟨0, _⟩ => rfl | ⟨1, _⟩ => rfl
  rw [el, er, val_main_v110_apply, val_main_v109_apply, val_main_v108_apply, val_main_v107_apply, val_main_v106_apply,
    val_main_cst_25_apply]
  have en : idx_main_v108 (idx_main_v109 (ix2 p k)) = ix1 p := by
    funext a; match a with | ⟨0, _⟩ => rfl
  rw [en]
  rfl

end Cert.ReferenceIdeal.Stages

end
-- ==== Proof.Chain.lean ====
/-
  What each buffer the kernel's program reads holds at each boundary between its segments, as the reference's stages
  of the launch arrays.

  Both programs build the same edge lists with self-loops, degrees, normalisation coefficients and embedding lookup from
  the launch arrays, by the same host operations; the kernel's program keeps them in buffers that no later segment
  writes, so a later stretch finds them unchanged.  Each region's output is its whole-array function of the region's
  inputs (the region modules), which is the reference's stage of the same inputs (the reference's dense stages); each
  host stretch between regions applies the reference's own operations to those.  Followed from the launch to the
  return, the result buffer ends holding the reference's result stage of the launch arrays.
-/
import proofs.«176902_j88648124990850_1_alg».proof.Proof.Gen.KernelIdeal.Frame
import proofs.«176902_j88648124990850_1_alg».proof.Proof.Region0
import proofs.«176902_j88648124990850_1_alg».proof.Proof.Region1
import proofs.«176902_j88648124990850_1_alg».proof.Proof.Region2
import proofs.«176902_j88648124990850_1_alg».proof.Proof.Region3
import proofs.«176902_j88648124990850_1_alg».proof.Proof.Region4
import proofs.«176902_j88648124990850_1_alg».proof.Proof.RefStagesDense
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.ReferenceIdeal.ReadP Cert.ReferenceIdeal.Stages

variable (m : (ℓ : Loc nD τ sig) → Buf (Elt Ideal) ℓ) (ρ : Dev nD → PrngReg) (c : Dev nD)

/-! ## The launch arrays, typed as the reference's stages take them -/

abbrev x0 : (⟨Cert.ReferenceIdeal.S100000, .i32⟩ : BufTy).Contents (Elt Ideal) := m ((c : Thread nD τ).loc main_arg0)
abbrev x1 : (⟨Cert.ReferenceIdeal.S2x1600000, .i32⟩ : BufTy).Contents (Elt Ideal) := m ((c : Thread nD τ).loc main_arg1)
abbrev x2 : (⟨Cert.ReferenceIdeal.S100000, .i32⟩ : BufTy).Contents (Elt Ideal) := m ((c : Thread nD τ).loc main_arg2)
abbrev x3 : (⟨Cert.ReferenceIdeal.S50000x128, .f32⟩ : BufTy).Contents (Elt Ideal) := m ((c : Thread nD τ).loc main_arg3)
abbrev x4 : (⟨Cert.ReferenceIdeal.S128x128, .f32⟩ : BufTy).Contents (Elt Ideal) := m ((c : Thread nD τ).loc main_arg4)
abbrev x5 : (⟨Cert.ReferenceIdeal.S128, .f32⟩ : BufTy).Contents (Elt Ideal) := m ((c : Thread nD τ).loc main_arg5)
abbrev x6 : (⟨Cert.ReferenceIdeal.S128x128, .f32⟩ : BufTy).Contents (Elt Ideal) := m ((c : Thread nD τ).loc main_arg6)
abbrev x7 : (⟨Cert.ReferenceIdeal.S128, .f32⟩ : BufTy).Contents (Elt Ideal) := m ((c : Thread nD τ).loc main_arg7)
abbrev x8 : (⟨Cert.ReferenceIdeal.S128x10, .f32⟩ : BufTy).Contents (Elt Ideal) := m ((c : Thread nD τ).loc main_arg8)
abbrev x9 : (⟨Cert.ReferenceIdeal.S10, .f32⟩ : BufTy).Contents (Elt Ideal) := m ((c : Thread nD τ).loc main_arg9)

/-! ## What the later host stretches write, and so what they leave alone -/

abbrev written1 : List (Ref sig .tc) := [main_c_8, main_v38, main_v39, main_c_9, main_v40, main_v41, main_v42, main_v43, main_v44,
  main_v45, main_v46, main_v47, main_cst_10, main_v48, main_v49, main_v50, main_v51]
abbrev written3 : List (Ref sig .tc) := [main_c_11, main_v54, main_v55, main_c_12, main_v56, main_v57, main_v58, main_v59, main_v60,
  main_v61, main_v62, main_v63, main_cst_13, main_v64, main_v65, main_v66, main_v67]
abbrev written4 : List (Ref sig .tc) := [main_cst_14, main_v69, main_v70, main_v71, main_cst_15, main_v72, main_cst_16, main_v73,
  main_v74, main_v75, main_v76, main_v77]

theorem written1_sub : (hostOps1 : List (HloOp τ sig (Elt Ideal))).Forall fun op => op.writes ⊆ (written1.map (Proc.devRef (τ := τ) .tc)).toFinset := by
  simp only [hostOps1, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem written3_sub : (hostOps3 : List (HloOp τ sig (Elt Ideal))).Forall fun op => op.writes ⊆ (written3.map (Proc.devRef (τ := τ) .tc)).toFinset := by
  simp only [hostOps3, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem written4_sub : (hostOps4 : List (HloOp τ sig (Elt Ideal))).Forall fun op => op.writes ⊆ (written4.map (Proc.devRef (τ := τ) .tc)).toFinset := by
  simp only [hostOps4, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Across the first product only its output buffer changes. -/
theorem keep4 (b : Ref sig .tc) (hb : ∀ w, Pipeline.arrRef spec0 w ≠ b) :
    W4 m ρ c (Proc.devRef .tc b) = W3 m ρ c (Proc.devRef .tc b) := W4_of_ne m ρ c b hb
/-- The stretch after it leaves every buffer it does not write. -/
theorem keep5 (b : Ref sig .tc) (hb : b ∉ written1) : W5 m ρ c (Proc.devRef .tc b) = W4 m ρ c (Proc.devRef .tc b) :=
  StableHlo.after_of_writes_sub hostOps1 _ written1_sub hb
theorem keep6 (b : Ref sig .tc) (hb : ∀ w, Pipeline.arrRef spec1 w ≠ b) :
    W6 m ρ c (Proc.devRef .tc b) = W5 m ρ c (Proc.devRef .tc b) := W6_of_ne m ρ c b hb
theorem keep7 (b : Ref sig .tc) (hb : ∀ w, Pipeline.arrRef spec2 w ≠ b) :
    W7 m ρ c (Proc.devRef .tc b) = W6 m ρ c (Proc.devRef .tc b) := W7_of_ne m ρ c b hb
theorem keep8 (b : Ref sig .tc) (hb : b ∉ written3) : W8 m ρ c (Proc.devRef .tc b) = W7 m ρ c (Proc.devRef .tc b) :=
  StableHlo.after_of_writes_sub hostOps3 _ written3_sub hb
theorem keep9 (b : Ref sig .tc) (hb : ∀ w, Pipeline.arrRef spec3 w ≠ b) :
    W9 m ρ c (Proc.devRef .tc b) = W8 m ρ c (Proc.devRef .tc b) := W9_of_ne m ρ c b hb
theorem keep10 (b : Ref sig .tc) (hb : b ∉ written4) : W10 m ρ c (Proc.devRef .tc b) = W9 m ρ c (Proc.devRef .tc b) :=
  StableHlo.after_of_writes_sub hostOps4 _ written4_sub hb

/-! ## At the first product's entry: the three opening stretches, from the launch memory -/

/-- The edge sources with self-loops. -/
theorem sources3 : W3 m ρ c (Proc.devRef .tc main_v5) = val_main_v13 (F := Ideal) (x1 m c) := by
  show StableHlo.after hostOps0_2 (StableHlo.after hostOps0_1 (StableHlo.after hostOps0 (W0 m ρ c))) (Proc.devRef .tc main_v5) = _
  after_results_simp
  rfl
/-- The edge targets with self-loops. -/
theorem targets3 : W3 m ρ c (Proc.devRef .tc main_v6) = val_main_v14 (F := Ideal) (x1 m c) := by
  show StableHlo.after hostOps0_2 (StableHlo.after hostOps0_1 (StableHlo.after hostOps0 (W0 m ρ c))) (Proc.devRef .tc main_v6) = _
  after_results_simp
  rfl
/-- After the first stretch: which nodes have positive degree. -/
theorem mask1 : W1 m ρ c (Proc.devRef .tc main_v12) = val_main_v20 (F := Ideal) (x1 m c) := by
  show StableHlo.after hostOps0 (W0 m ρ c) (Proc.devRef .tc main_v12) = _
  after_results_simp
  rfl
/-- After the first stretch: the reciprocal square root of every degree. -/
theorem rsqrt1 : W1 m ρ c (Proc.devRef .tc main_v13) = val_main_v21 (F := Ideal) (x1 m c) := by
  show StableHlo.after hostOps0 (W0 m ρ c) (Proc.devRef .tc main_v13) = _
  after_results_simp
  rfl
/-- After the first stretch: the zero that stands in where the degree is not positive. -/
theorem zero1 : W1 m ρ c (Proc.devRef .tc main_cst_2) = val_main_cst_3 (F := Ideal) := by
  show StableHlo.after hostOps0 (W0 m ρ c) (Proc.devRef .tc main_cst_2) = _
  after_results_simp
  rfl
/-! Contents at a buffer's own type, moved along the statement that it is the buffer's type, are the same contents. -/
theorem mask_in (h1 : main_v12.ty = (⟨S100000, .i1⟩ : BufTy)) (h2 : main_v12.space ≠ .host) (h3 : main_v12.isScoped = false)
    (v : (⟨S100000, .i1⟩ : BufTy).Contents (Elt Ideal)) : (TRef.of (sig := sig) main_v12 h1 h2 h3).ofBuf v = v := rfl
theorem rsqrt_in (h1 : main_v13.ty = (⟨S100000, .f32⟩ : BufTy)) (h2 : main_v13.space ≠ .host) (h3 : main_v13.isScoped = false)
    (v : (⟨S100000, .f32⟩ : BufTy).Contents (Elt Ideal)) : (TRef.of (sig := sig) main_v13 h1 h2 h3).ofBuf v = v := rfl
theorem dinv_out (h1 : main_v14.ty = (⟨S100000, .f32⟩ : BufTy)) (h2 : main_v14.space ≠ .host) (h3 : main_v14.isScoped = false)
    (v : (⟨S100000, .f32⟩ : BufTy).Contents (Elt Ideal)) : (TRef.of (sig := sig) main_v14 h1 h2 h3).toBuf v = v := rfl
theorem zeros_in (h1 : main_call0_v1.ty = (⟨S100000, .f32⟩ : BufTy)) (h2 : main_call0_v1.space ≠ .host) (h3 : main_call0_v1.isScoped = false)
    (v : (⟨S100000, .f32⟩ : BufTy).Contents (Elt Ideal)) : (TRef.of (sig := sig) main_call0_v1 h1 h2 h3).ofBuf v = v := rfl
theorem zeros_out (h1 : main_call0_v1.ty = (⟨S100000, .f32⟩ : BufTy)) (h2 : main_call0_v1.space ≠ .host) (h3 : main_call0_v1.isScoped = false)
    (v : (⟨S100000, .f32⟩ : BufTy).Contents (Elt Ideal)) : (TRef.of (sig := sig) main_call0_v1 h1 h2 h3).toBuf v = v := rfl
theorem zero_in (h1 : main_call0_v0.ty = (⟨S_, .f32⟩ : BufTy)) (h2 : main_call0_v0.space ≠ .host) (h3 : main_call0_v0.isScoped = false)
    (v : (⟨S_, .f32⟩ : BufTy).Contents (Elt Ideal)) : (TRef.of (sig := sig) main_call0_v0 h1 h2 h3).ofBuf v = v := rfl
theorem zero_out (h1 : main_call0_v0.ty = (⟨S_, .f32⟩ : BufTy)) (h2 : main_call0_v0.space ≠ .host) (h3 : main_call0_v0.isScoped = false)
    (v : (⟨S_, .f32⟩ : BufTy).Contents (Elt Ideal)) : (TRef.of (sig := sig) main_call0_v0 h1 h2 h3).toBuf v = v := rfl
theorem literal_in (h1 : main_cst_2.ty = (⟨S_, .f32⟩ : BufTy)) (h2 : main_cst_2.space ≠ .host) (h3 : main_cst_2.isScoped = false)
    (v : (⟨S_, .f32⟩ : BufTy).Contents (Elt Ideal)) : (TRef.of (sig := sig) main_cst_2 h1 h2 h3).ofBuf v = v := rfl

/-- After the second stretch: the normalising factor of every node, zero where the degree is not positive. -/
theorem dinv2 : W2 m ρ c (Proc.devRef .tc main_v14) = val_main_v22 (F := Ideal) (x1 m c) := by
  have h12 := mask1 m ρ c
  have h13 := rsqrt1 m ρ c
  have hz := zero1 m ρ c
  show StableHlo.after hostOps0_1 (W1 m ρ c) (Proc.devRef .tc main_v14) = _
  generalize W1 m ρ c = U at h12 h13 hz ⊢
  after_results_simp
  rw [h12, h13, hz]
  unfold val_main_v22
  generalize val_main_v20 (F := Ideal) (x1 m c) = A
  generalize val_main_v21 (F := Ideal) (x1 m c) = B
  rw [literal_in, zero_out, zero_in, zeros_out, zeros_in, mask_in, rsqrt_in, dinv_out]
  rfl
  all_goals first | rfl | decide
/-- After the second stretch the edge sources with self-loops are in place … -/
theorem sourcesAfter2 : W2 m ρ c (Proc.devRef .tc main_v5) = val_main_v13 (F := Ideal) (x1 m c) := by
  show StableHlo.after hostOps0_1 (StableHlo.after hostOps0 (W0 m ρ c)) (Proc.devRef .tc main_v5) = _
  after_results_simp
  rfl
/-- … and so are the edge targets. -/
theorem targetsAfter2 : W2 m ρ c (Proc.devRef .tc main_v6) = val_main_v14 (F := Ideal) (x1 m c) := by
  show StableHlo.after hostOps0_1 (StableHlo.after hostOps0 (W0 m ρ c)) (Proc.devRef .tc main_v6) = _
  after_results_simp
  rfl
/-- The normalisation coefficient of every edge. -/
theorem norm3 : W3 m ρ c (Proc.devRef .tc main_v29) = val_main_v37 (F := Ideal) (x1 m c) := by
  have hs := sourcesAfter2 m ρ c
  have ht := targetsAfter2 m ρ c
  have hd := dinv2 m ρ c
  show StableHlo.after hostOps0_2 (W2 m ρ c) (Proc.devRef .tc main_v29) = _
  generalize W2 m ρ c = U at hs ht hd ⊢
  after_results_simp
  rw [hs, ht, hd]
  rfl
/-- The embedded node features. -/
theorem features3 : W3 m ρ c (Proc.devRef .tc main_v36) = val_main_v10 (F := Ideal) (x0 m c) (x3 m c) := by
  show StableHlo.after hostOps0_2 (StableHlo.after hostOps0_1 (StableHlo.after hostOps0 (W0 m ρ c))) (Proc.devRef .tc main_v36) = _
  after_results_simp
  rfl
theorem arg2_3 : W3 m ρ c (Proc.devRef .tc main_arg2) = (x2 m c) := by
  show StableHlo.after hostOps0_2 (StableHlo.after hostOps0_1 (StableHlo.after hostOps0 (W0 m ρ c))) (Proc.devRef .tc main_arg2) = _
  after_results_simp
theorem arg4_3 : W3 m ρ c (Proc.devRef .tc main_arg4) = (x4 m c) := by
  show StableHlo.after hostOps0_2 (StableHlo.after hostOps0_1 (StableHlo.after hostOps0 (W0 m ρ c))) (Proc.devRef .tc main_arg4) = _
  after_results_simp
theorem arg5_3 : W3 m ρ c (Proc.devRef .tc main_arg5) = (x5 m c) := by
  show StableHlo.after hostOps0_2 (StableHlo.after hostOps0_1 (StableHlo.after hostOps0 (W0 m ρ c))) (Proc.devRef .tc main_arg5) = _
  after_results_simp
theorem arg6_3 : W3 m ρ c (Proc.devRef .tc main_arg6) = (x6 m c) := by
  show StableHlo.after hostOps0_2 (StableHlo.after hostOps0_1 (StableHlo.after hostOps0 (W0 m ρ c))) (Proc.devRef .tc main_arg6) = _
  after_results_simp
theorem arg7_3 : W3 m ρ c (Proc.devRef .tc main_arg7) = (x7 m c) := by
  show StableHlo.after hostOps0_2 (StableHlo.after hostOps0_1 (StableHlo.after hostOps0 (W0 m ρ c))) (Proc.devRef .tc main_arg7) = _
  after_results_simp
theorem arg8_3 : W3 m ρ c (Proc.devRef .tc main_arg8) = (x8 m c) := by
  show StableHlo.after hostOps0_2 (StableHlo.after hostOps0_1 (StableHlo.after hostOps0 (W0 m ρ c))) (Proc.devRef .tc main_arg8) = _
  after_results_simp
theorem arg9_3 : W3 m ρ c (Proc.devRef .tc main_arg9) = (x9 m c) := by
  show StableHlo.after hostOps0_2 (StableHlo.after hostOps0_1 (StableHlo.after hostOps0 (W0 m ρ c))) (Proc.devRef .tc main_arg9) = _
  after_results_simp

/-! ## The first layer -/

/-- After the first product: the reference's first product. -/
theorem hidden4 : W4 m ρ c (Proc.devRef .tc main_v37) = val_main_v11 (F := Ideal) (x0 m c) (x3 m c) (x4 m c) := by
  refine (W4_arr m ρ c 2).trans ?_
  rw [Region0.final (V3 m ρ) c]
  show Gcn.prod (M := 100000) (K := 128) (N := 128) (W3 m ρ c (Proc.devRef .tc main_v36)) (W3 m ρ c (Proc.devRef .tc main_arg4)) = _
  rw [features3, arg4_3, product1]

/-- After the stretch that gathers, scales and scatters: the reference's aggregated messages. -/
theorem agg5 : W5 m ρ c (Proc.devRef .tc main_v50) = val_main_v50 (F := Ideal) (x0 m c) (x1 m c) (x3 m c) (x4 m c) := by
  show StableHlo.after hostOps1 (W4 m ρ c) (Proc.devRef .tc main_v50) = _
  after_results_simp
  rw [hidden4, keep4 m ρ c main_v5 (by decide), keep4 m ρ c main_v6 (by decide), keep4 m ρ c main_v29 (by decide),
    sources3, targets3, norm3]
  rfl
/-- The first bias as a one-row matrix. -/
theorem bias5 : W5 m ρ c (Proc.devRef .tc main_v51) = shapeCast S1x128 (x5 m c) shapeCasts_S128_S1x128 := by
  show StableHlo.after hostOps1 (W4 m ρ c) (Proc.devRef .tc main_v51) = _
  after_results_simp
  rw [keep4 m ρ c main_arg5 (by decide), arg5_3]
  rfl

/-- After the first bias and positive part: the reference's first layer. -/
theorem layer6 : W6 m ρ c (Proc.devRef .tc main_v52) = val_main_v54 (F := Ideal) (x0 m c) (x1 m c) (x3 m c) (x4 m c) (x5 m c) := by
  refine (W6_arr m ρ c 2).trans ?_
  rw [Region1.final (V5 m ρ) c]
  show Gcn.biasRelu (M := 100000) (N := 128) (W5 m ρ c (Proc.devRef .tc main_v50)) (W5 m ρ c (Proc.devRef .tc main_v51)) = _
  rw [agg5, bias5, biasRelu1 (x0 m c) (x1 m c) (x3 m c) (x4 m c) (x5 m c) shapeCasts_S128_S1x128]

/-! ## The second layer -/

/-- After the second product: the reference's second product. -/
theorem hidden7 : W7 m ρ c (Proc.devRef .tc main_v53) = val_main_v55 (F := Ideal) (x0 m c) (x1 m c) (x3 m c) (x4 m c) (x5 m c) (x6 m c) := by
  refine (W7_arr m ρ c 2).trans ?_
  rw [Region2.final (V6 m ρ) c]
  show Gcn.prod (M := 100000) (K := 128) (N := 128) (W6 m ρ c (Proc.devRef .tc main_v52)) (W6 m ρ c (Proc.devRef .tc main_arg6)) = _
  rw [layer6, keep6 m ρ c main_arg6 (by decide), keep5 m ρ c main_arg6 (by decide), keep4 m ρ c main_arg6 (by decide), arg6_3,
    product2]

/-- What the edge lists and coefficients hold when the second layer's stretch reads them: as at the first product's entry. -/
theorem carried7 (b : Ref sig .tc) (h4 : ∀ w, Pipeline.arrRef spec0 w ≠ b) (h5 : b ∉ written1)
    (h6 : ∀ w, Pipeline.arrRef spec1 w ≠ b) (h7 : ∀ w, Pipeline.arrRef spec2 w ≠ b) :
    W7 m ρ c (Proc.devRef .tc b) = W3 m ρ c (Proc.devRef .tc b) :=
  (keep7 m ρ c b h7).trans ((keep6 m ρ c b h6).trans ((keep5 m ρ c b h5).trans (keep4 m ρ c b h4)))

/-- After the second stretch that gathers, scales and scatters: the reference's second aggregated messages. -/
theorem agg8 : W8 m ρ c (Proc.devRef .tc main_v66) = val_main_v94 (F := Ideal) (x0 m c) (x1 m c) (x3 m c) (x4 m c) (x5 m c) (x6 m c) := by
  show StableHlo.after hostOps3 (W7 m ρ c) (Proc.devRef .tc main_v66) = _
  after_results_simp
  rw [hidden7, carried7 m ρ c main_v5 (by decide) (by decide) (by decide) (by decide),
    carried7 m ρ c main_v6 (by decide) (by decide) (by decide) (by decide),
    carried7 m ρ c main_v29 (by decide) (by decide) (by decide) (by decide),
    sources3, targets3, norm3, ← sources2, ← targets2, ← norm2]
  rfl
/-- The second bias as a one-row matrix. -/
theorem bias8 : W8 m ρ c (Proc.devRef .tc main_v67) = shapeCast S1x128 (x7 m c) shapeCasts_S128_S1x128 := by
  show StableHlo.after hostOps3 (W7 m ρ c) (Proc.devRef .tc main_v67) = _
  after_results_simp
  rw [carried7 m ρ c main_arg7 (by decide) (by decide) (by decide) (by decide), arg7_3]
  rfl

/-- After the second bias and positive part: the reference's second layer. -/
theorem layer9 : W9 m ρ c (Proc.devRef .tc main_v68) = val_main_v98 (F := Ideal) (x0 m c) (x1 m c) (x3 m c) (x4 m c) (x5 m c) (x6 m c) (x7 m c) := by
  refine (W9_arr m ρ c 2).trans ?_
  rw [Region3.final (V8 m ρ) c]
  show Gcn.biasRelu (M := 100000) (N := 128) (W8 m ρ c (Proc.devRef .tc main_v66)) (W8 m ρ c (Proc.devRef .tc main_v67)) = _
  rw [agg8, bias8, biasRelu2 (x0 m c) (x1 m c) (x3 m c) (x4 m c) (x5 m c) (x6 m c) (x7 m c) shapeCasts_S128_S1x128]

/-! ## Pooling and the classifier -/

/-- A launch array is still as launched when the last stretch reads it. -/
theorem carried9 (b : Ref sig .tc) (h4 : ∀ w, Pipeline.arrRef spec0 w ≠ b) (h5 : b ∉ written1)
    (h6 : ∀ w, Pipeline.arrRef spec1 w ≠ b) (h7 : ∀ w, Pipeline.arrRef spec2 w ≠ b) (h8 : b ∉ written3)
    (h9 : ∀ w, Pipeline.arrRef spec3 w ≠ b) :
    W9 m ρ c (Proc.devRef .tc b) = W3 m ρ c (Proc.devRef .tc b) :=
  (keep9 m ρ c b h9).trans ((keep8 m ρ c b h8).trans (carried7 m ρ c b h4 h5 h6 h7))

/-- The per-graph sums. -/
theorem sums10 : W10 m ρ c (Proc.devRef .tc main_v71) = val_main_v101 (F := Ideal) (x0 m c) (x1 m c) (x2 m c) (x3 m c) (x4 m c) (x5 m c) (x6 m c) (x7 m c) := by
  show StableHlo.after hostOps4 (W9 m ρ c) (Proc.devRef .tc main_v71) = _
  after_results_simp
  rw [layer9, carried9 m ρ c main_arg2 (by decide) (by decide) (by decide) (by decide) (by decide) (by decide), arg2_3]
  rfl
/-- The per-graph counts as a one-column matrix. -/
theorem counts10 : W10 m ρ c (Proc.devRef .tc main_v76)
    = shapeCast S512x1 (val_main_v105 (F := Ideal) (x2 m c)) shapeCasts_S512_S512x1 := by
  show StableHlo.after hostOps4 (W9 m ρ c) (Proc.devRef .tc main_v76) = _
  after_results_simp
  rw [carried9 m ρ c main_arg2 (by decide) (by decide) (by decide) (by decide) (by decide) (by decide), arg2_3]
  rfl
/-- The classifier bias as a one-row matrix. -/
theorem bias10 : W10 m ρ c (Proc.devRef .tc main_v77) = shapeCast S1x10 (x9 m c) shapeCasts_S10_S1x10 := by
  show StableHlo.after hostOps4 (W9 m ρ c) (Proc.devRef .tc main_v77) = _
  after_results_simp
  rw [carried9 m ρ c main_arg9 (by decide) (by decide) (by decide) (by decide) (by decide) (by decide), arg9_3]
  rfl
/-- The classifier weights. -/
theorem weights10 : W10 m ρ c (Proc.devRef .tc main_arg8) = (x8 m c) :=
  (keep10 m ρ c main_arg8 (by decide)).trans
    ((carried9 m ρ c main_arg8 (by decide) (by decide) (by decide) (by decide) (by decide) (by decide)).trans (arg8_3 m ρ c))

/-- THE RESULT BUFFER at the return: the reference's result stage of the launch arrays. -/
theorem result : W11 m ρ c (Proc.devRef .tc main_v78) = val_main_v114 (F := Ideal) (x0 m c) (x1 m c) (x2 m c) (x3 m c) (x4 m c) (x5 m c) (x6 m c) (x7 m c) (x8 m c) (x9 m c) := by
  refine (W11_arr m ρ c 4).trans ?_
  rw [Region4.final (V10 m ρ) c]
  show Gcn.poolLinear (M := 512) (K := 128) (N := 10) (W10 m ρ c (Proc.devRef .tc main_v71)) (W10 m ρ c (Proc.devRef .tc main_v76))
    (W10 m ρ c (Proc.devRef .tc main_arg8)) (W10 m ρ c (Proc.devRef .tc main_v77)) = _
  rw [sums10, counts10, weights10, bias10, pooled (x0 m c) (x1 m c) (x2 m c) (x3 m c) (x4 m c) (x5 m c) (x6 m c) (x7 m c) (x8 m c) (x9 m c) shapeCasts_S512_S512x1 shapeCasts_S10_S1x10]

end Cert.KernelIdeal.Chain

end
-- ==== Proof.lean ====
/-
  The kernel: a two-layer graph convolution over 100000 nodes and 1600000 edges with self-loops, mean-pooled over 512
  graphs into a 10-way linear classifier.  Its program does the embedding lookup, the degrees and normalisation
  coefficients, and each layer's gather, scaling and scatter-add on the host, and runs five kernels between them:
  each layer's node-wise product x · W (ten blocks of 10000 rows) and its bias-add with positive part, and the pooled
  classifier (sums / max (counts, 1)) · W + b.  The reference does all of it on the host.

  Over the extended reals the two compute the same array.  The host operations are the same on both sides, applied
  to the same values; each kernel's output array is the reference's stage of the same inputs: a product accumulated
  into zero is the plain sum Σ_k x (p, k) · w (k, q), whatever the row blocking; a bias recast as a one-row matrix and
  added along the rows is the bias laid along the rows; counts clamped at one after being recast as a column are the
  clamped counts recast.  No law of arithmetic beyond 0 + x = x is used, so nothing is asked of the inputs' finiteness.

  The three frames are the generated frame certificates and the reference's run; the idealization rewrote no operation.
-/
import proofs.«176902_j88648124990850_1_alg».proof.Defs
import proofs.«176902_j88648124990850_1_alg».proof.Proof.Gen.Kernel
import proofs.«176902_j88648124990850_1_alg».proof.Proof.Gen.Kernel.Frame
import proofs.«176902_j88648124990850_1_alg».proof.Proof.Gen.KernelIdeal
import proofs.«176902_j88648124990850_1_alg».proof.Proof.Gen.KernelIdeal.Frame
import proofs.«176902_j88648124990850_1_alg».proof.Proof.Gen.ReferenceIdeal
import proofs.«176902_j88648124990850_1_alg».proof.Proof.Gen.Pre_finite_inputs
import proofs.«176902_j88648124990850_1_alg».proof.Proof.KernelRun
import proofs.«176902_j88648124990850_1_alg».proof.Proof.Chain
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result at the reference's result stage of the (agreeing) launch arrays. -/
theorem algebraic : Cert.algebraic_KernelIdeal_ReferenceIdeal := by
  intro m ρ m' ρ' _ hagree
  refine ⟨fun c => Cert.KernelIdeal.Gen.W11 m ρ c (Proc.devRef .tc Cert.KernelIdeal.main_v78),
    Cert.KernelIdeal.Result.run (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7, e8, e9⟩ := hagree c
  rw [Cert.ReferenceIdeal.ReadP.val_main_v114_eq, e0, e1, e2, e3, e4, e5, e6, e7, e8, e9]
  exact (Cert.KernelIdeal.Chain.result m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
